-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64 .f32) (main_arg10 : FVec F S256x128 .f32) (main_arg11 : FVec F S128 .f32) (main_arg12 : FVec F S128x64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S256x128 .f32) (main_arg11 : FVec F S128 .f32) (main_arg12 : FVec F S128x64 .f32) (main_arg13 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128x64 .f32) (main_arg6 : FVec F S128x128 .f32) (main_arg7 : FVec F S128 .f32) (main_arg8 : FVec F S128x64 .f32) (main_arg9 : FVec F S64 .f32) (main_arg10 : FVec F S256x128 .f32) (main_arg11 : FVec F S128 .f32) (main_arg12 : FVec F S128x64 .f32) (main_arg13 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S256x128 : Shape := ⟨2, ![256, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S1600000x64 : Shape := ⟨2, ![1600000, 64]⟩
abbrev S64x128 : Shape := ⟨2, ![64, 128]⟩

abbrev nBuf : Space → Nat
  | .hbm => 58
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S50000x128, .bf16⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .bf16⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S1x128, .f32⟩
  | .hbm, ⟨33, _⟩ => ⟨S1x64, .f32⟩
  | .hbm, ⟨34, _⟩ => ⟨S1x128, .f32⟩
  | .hbm, ⟨35, _⟩ => ⟨S1x64, .f32⟩
  | .hbm, ⟨36, _⟩ => ⟨S50000x128, .f32⟩
  | .hbm, ⟨37, _⟩ => ⟨S50000x64, .f32⟩
  | .hbm, ⟨38, _⟩ => ⟨S50000x64, .f32⟩
  | .hbm, ⟨39, _⟩ => ⟨S50000x64, .bf16⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .bf16⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S50000x64, .f32⟩
  | .hbm, ⟨55, _⟩ => ⟨S1600000x1, .i32⟩
  | .hbm, ⟨56, _⟩ => ⟨S50000x64, .f32⟩
  | .hbm, ⟨57, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S128x128, .f32⟩
  | .local _ .vmem, ⟨9, _⟩ => ⟨S128x64, .f32⟩
  | .local _ .vmem, ⟨10, _⟩ => ⟨S2000x128, .f32⟩
  | .local _ .vmem, ⟨11, _⟩ => ⟨S2000x128, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x128, .f32⟩
  | .local _ .vmem, ⟨19, _⟩ => ⟨S2000x128, .f32⟩
  | .local _ .vmem, ⟨20, _⟩ => ⟨S2000x64, .f32⟩
  | .local _ .vmem, ⟨21, _⟩ => ⟨S2000x64, .f32⟩
  | .local _ .vmem, ⟨22, _⟩ => ⟨S256x128, .f32⟩
  | .local _ .vmem, ⟨23, _⟩ => ⟨S1x128, .f32⟩
  | .local _ .vmem, ⟨24, _⟩ => ⟨S128x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S2000x64_S2000x64 : S2000x64.ShapeCasts S2000x64
  inb_S256x128_S64x128_0_0 : ∀ a, (![0, 0] : Fin 2 → Nat) a + S64x128.size a ≤ S256x128.size a
  h_S64x128 : 0 < S64x128.numel
  inb_S256x128_S128x128_64_0 : ∀ a, (![64, 0] : Fin 2 → Nat) a + S128x128.size a ≤ S256x128.size a
  inb_S256x128_S64x128_192_0 : ∀ a, (![192, 0] : Fin 2 → Nat) a + S64x128.size a ≤ S256x128.size a
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .f32 = 32 ∨ (Rect.block (s := S50000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S50000x64.size a
  hwx0_10 : ∀ i : grid0.Coords, EltTy.bits .f32 = 32 ∨ (Rect.block (s := S50000x64) S2000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_1) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_2) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v19_1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S256x128 : Shape := ⟨2, ![256, 128]⟩
abbrev S1600000x1 : Shape := ⟨2, ![1600000, 1]⟩
abbrev S_ : Shape := ⟨0, ![]⟩
abbrev S1600000x128 : Shape := ⟨2, ![1600000, 128]⟩
abbrev S50000x64 : Shape := ⟨2, ![50000, 64]⟩
abbrev S1x128 : Shape := ⟨2, ![1, 128]⟩
abbrev S1x64 : Shape := ⟨2, ![1, 64]⟩
abbrev S50000x256 : Shape := ⟨2, ![50000, 256]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S50000x64, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S50000x256, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_cst : Ref sig .tc := ⟨.hbm, 31, rfl⟩
abbrev main_call0_v0 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_cst : Ref sig .tc := ⟨.hbm, 55, rfl⟩
abbrev main_call1_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x128_S50000x64_S50000x256_d1 : Shape.Concatenates [S50000x64, S50000x128, S50000x64] S50000x256 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x256_S256x128_S50000x128_1_0_0_1_n_n_wf : DotDims.WF S50000x256 S256x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel's run, with its result named.

  The program is four segments: host operations, the first kernel over 25 blocks of 2000 rows, host operations, the
  second kernel over the same 25 blocks.  Every weakly fair execution terminates without a fault, and in the final
  state every buffer holds what the fold of the four segments over the launch memory gives it: the argument arrays
  what they held at launch, and the result buffer the second kernel's output array after its 25 write-backs (`W4`).
-/
import proofs.«132948_j5471788335183_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the second
    kernel's output array after its write-backs, and the fourteen argument arrays end as launched. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Gen

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibRowBias.lean ====
/-
  A one-row bias added to a matrix product, read at an entry, generic in the sizes.

  * `rowBcast_apply`: a one-row matrix `[1, B]`, cast to its own shape and broadcast down `A` rows, reads at `(r, j)`
    the row's entry `(0, j)`.
  * `layer_apply`: the matrix unit's product of an `A × K` by a `K × B` matrix into a zero accumulator, plus such a
    broadcast one-row bias, reads at `(r, j)` the sum over `k` of `l (r, k) · w (k, j)`, plus `b (0, j)` — over the
    extended reals, whatever the operands' float formats.
-/
import proofs.«132948_j5471788335183_2_alg».proof.Proof.LibHostRead
import Idealize.ShloMosaic.Lib.Pipeline.Value
import Idealize.ShloMosaic.Lib.ValueLayout

noncomputable section

open scoped BigOperators

namespace Cert.LibRowBias

open Idealize.ShloMosaic Idealize.ShloMosaic.ValueIdx

/-- A one-row matrix, cast to its own shape and broadcast down `A` rows: entry `(r, j)` is the row's entry `j`. -/
theorem rowBcast_apply {α : Type} {A B : Nat} (x : (⟨2, ![1, B]⟩ : Shape).Idx → α)
    (h1 : (⟨2, ![1, B]⟩ : Shape).ShapeCasts ⟨2, ![1, B]⟩) (h2 : (⟨2, ![1, B]⟩ : Shape).Broadcasts ⟨2, ![A, B]⟩)
    (r : Fin A) (j : Fin B) :
    broadcastTo ⟨2, ![A, B]⟩ (shapeCast ⟨2, ![1, B]⟩ x h1) h2 (ix2 r j) = x (ix2 (0 : Fin 1) j) := by
  rw [shapeCast_self]
  refine broadcastTo_apply _ h2 (ix2 r j) (ix2 (0 : Fin 1) j) fun ax => ?_
  match ax with
  | ⟨0, _⟩ => rfl
  | ⟨1, _⟩ =>
    show j.val = if B = 1 then 0 else j.val
    split
    · have := j.isLt; omega
    · rfl

/-- A matrix product into a zero accumulator plus a one-row bias, at `(r, j)`: the sum over the contracted
    coordinate plus the bias's entry `j`. -/
theorem layer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨2, ![1, B]⟩ : Shape).Idx → EReal)
    (h1 : (⟨2, ![1, B]⟩ : Shape).ShapeCasts ⟨2, ![1, B]⟩) (h2 : (⟨2, ![1, B]⟩ : Shape).Broadcasts ⟨2, ![A, B]⟩)
    (r : Fin A) (j : Fin B) :
    FloatOps.matmul (F := Ideal) (φ₁ := φ₁) (φ₂ := φ₂) (Cert.LibHR.plainDotDims A K B wf) none l w
        (constant (F := Ideal) ⟨2, ![A, B]⟩ .f32 0x00000000#32) (ix2 r j)
      + broadcastTo ⟨2, ![A, B]⟩ (shapeCast ⟨2, ![1, B]⟩ b h1) h2 (ix2 r j)
      = (∑ k : Fin K, l (ix2 r k) * w (ix2 k j)) + b (ix2 (0 : Fin 1) j) := by
  rw [Cert.LibHR.plainMatmul_zero_apply, rowBcast_apply]

end Cert.LibRowBias

end
-- ==== Proof.Spec.lean ====
/-
  The mathematics both programs compute, over the extended reals, entry by entry.

  A graph with `N` nodes and `E` weighted edges acts on a node table `Y` by the sparse aggregation
  `agg Y n c = ∑ over the edges e arriving at n of w e · Y (row e) c`: edge `e` reads the row `row e` of the
  table and is added into every node `n` with `e ∈ hits n`.  Nothing is assumed of `row` and `hits`: an edge
  whose head is no node arrives nowhere, and an edge whose tail is no node reads some fixed row.

  With `dense x W j = ∑ k, x k · W k j` (a row times a matrix) and `relu x = max x 0`:
    conv1 = relu (agg X · W1)                         the first graph convolution
    selfc = relu (X · Wm1 + bm1) · Wm2 + bm2          the node's own path
    conv2 = (agg conv1) · W2                          the second convolution, aggregated first   (`conv2R`)
          = agg (conv1 · W2)                          … or multiplied first                      (`conv2K`)
    out   = relu ([selfc | conv1 | conv2] · Wh1 + bh1) · Wh2 + bh2
  where the product of the joined row with `Wh1` is either one sum over all 256 columns (`headR`) or the sum of the
  three products with the matching row blocks of `Wh1` (`headK`).
-/
import Mathlib.Data.EReal.Operations
import Mathlib.Algebra.BigOperators.Ring.Finset
import Mathlib.Algebra.BigOperators.Fin

noncomputable section

namespace Cert.Spec

open Finset

variable {N E : ℕ}

/-- A row times a matrix: `∑ k, x k · W k j`. -/
def dense {K B : ℕ} (x : Fin K → EReal) (W : Fin K → Fin B → EReal) (j : Fin B) : EReal := ∑ k, x k * W k j

/-- The rectifier. -/
def relu (x : EReal) : EReal := max x 0

/-- The sparse aggregation of a node table along the weighted edges. -/
def agg (row : Fin E → Fin N) (hits : Fin N → Finset (Fin E)) (w : Fin E → EReal) {C : ℕ}
    (Y : Fin N → Fin C → EReal) (n : Fin N) (c : Fin C) : EReal :=
  ∑ e ∈ hits n, w e * Y (row e) c

/-- The first graph convolution: `relu (agg X · W1)`. -/
def conv1 (row : Fin E → Fin N) (hits : Fin N → Finset (Fin E)) (w : Fin E → EReal)
    (X : Fin N → Fin 128 → EReal) (W1 : Fin 128 → Fin 128 → EReal) (n : Fin N) (k : Fin 128) : EReal :=
  relu (dense (agg row hits w X n) W1 k)

/-- The node's own path: `relu (X · Wm1 + bm1) · Wm2 + bm2`. -/
def selfc (X : Fin N → Fin 128 → EReal) (Wm1 : Fin 128 → Fin 128 → EReal) (bm1 : Fin 128 → EReal)
    (Wm2 : Fin 128 → Fin 64 → EReal) (bm2 : Fin 64 → EReal) (n : Fin N) (j : Fin 64) : EReal :=
  dense (fun k => relu (dense (X n) Wm1 k + bm1 k)) Wm2 j + bm2 j

/-- The second convolution, aggregating the 128-wide table and multiplying by `W2` afterwards. -/
def conv2R (row : Fin E → Fin N) (hits : Fin N → Finset (Fin E)) (w : Fin E → EReal)
    (C1 : Fin N → Fin 128 → EReal) (W2 : Fin 128 → Fin 64 → EReal) (n : Fin N) (j : Fin 64) : EReal :=
  dense (agg row hits w C1 n) W2 j

/-- The second convolution, multiplying every row by `W2` first and aggregating the 64-wide table. -/
def conv2K (row : Fin E → Fin N) (hits : Fin N → Finset (Fin E)) (w : Fin E → EReal)
    (C1 : Fin N → Fin 128 → EReal) (W2 : Fin 128 → Fin 64 → EReal) (n : Fin N) (j : Fin 64) : EReal :=
  agg row hits w (fun n' j' => dense (C1 n') W2 j') n j

/-- The three rows side by side: columns 0–63, 64–191, 192–255. -/
def cat (s : Fin 64 → EReal) (c : Fin 128 → EReal) (a : Fin 64 → EReal) (i : Fin 256) : EReal :=
  if h : i.val < 64 then s ⟨i.val, h⟩
  else if h2 : i.val < 192 then c ⟨i.val - 64, by omega⟩
  else a ⟨i.val - 192, by omega⟩

/-- The head on the joined row, as one product over all 256 columns. -/
def headR (s : Fin 64 → EReal) (c : Fin 128 → EReal) (a : Fin 64 → EReal) (Wh1 : Fin 256 → Fin 128 → EReal)
    (bh1 : Fin 128 → EReal) (Wh2 : Fin 128 → Fin 64 → EReal) (bh2 : Fin 64 → EReal) (j : Fin 64) : EReal :=
  dense (fun k => relu (dense (cat s c a) Wh1 k + bh1 k)) Wh2 j + bh2 j

/-- The head as the sum of the three products with the row blocks of `Wh1`. -/
def headK (s : Fin 64 → EReal) (c : Fin 128 → EReal) (a : Fin 64 → EReal) (Wh1 : Fin 256 → Fin 128 → EReal)
    (bh1 : Fin 128 → EReal) (Wh2 : Fin 128 → Fin 64 → EReal) (bh2 : Fin 64 → EReal) (j : Fin 64) : EReal :=
  dense (fun k => relu (((dense s (fun (i : Fin 64) k' => Wh1 ⟨i.val, by omega⟩ k') k
      + dense c (fun (i : Fin 128) k' => Wh1 ⟨64 + i.val, by omega⟩ k') k)
      + dense a (fun (i : Fin 64) k' => Wh1 ⟨192 + i.val, by omega⟩ k') k) + bh1 k)) Wh2 j + bh2 j

end Cert.Spec

end
-- ==== Proof.KPay.lean ====
/-
  What the two kernels compute on one block of 2000 rows, entry by entry, over the extended reals.

  Every matrix product here starts from a zero accumulator, so its entry `(p, q)` is the plain sum
  `∑ k, l (p, k) · r (k, q)`; a change of float format is the identity; a `[1, B]` bias is added to every row; the
  rectifier is `max · 0`.  Hence, on the blocks the first kernel loads (node rows `x`, aggregated rows `a`, the
  weights whole):
    the first output  is  relu (a · W1),
    the third         is  relu (a · W1) · W2,
    the second        is  relu (x · Wm1 + bm1) · Wm2 + bm2,
  and the second kernel's output on its blocks `s`, `c`, `g` and the three row blocks `Wa`, `Wb`, `Wc` of the head's
  first matrix is  relu (((s · Wa + c · Wb) + g · Wc) + bh1) · Wh2 + bh2.
-/
import proofs.«132948_j5471788335183_2_alg».proof.Proof.Gen.KernelIdeal.Skeleton
import proofs.«132948_j5471788335183_2_alg».proof.Proof.LibContractPlain
import proofs.«132948_j5471788335183_2_alg».proof.Proof.LibRowBias
import proofs.«132948_j5471788335183_2_alg».proof.Proof.Spec
import Idealize.ShloMosaic.Lib.Pipeline.Value
import Idealize.ShloMosaic.Lib.ValueIdx
import Idealize.ShloMosaic.PureOps.Ideal.Laws

noncomputable section

namespace Cert.KPay

open Idealize.ShloMosaic Idealize.ShloMosaic.ValueIdx Cert.KernelIdeal Cert.KernelIdeal.Gen

/-! ## The four matrix products, each from a zero accumulator, as sums over the contracted axis -/

theorem mm_128_128 {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.LibContractPlain.matmulPlain_zero_apply 2000 128 128
    Facts₀.dot_S2000x128_S128x128_S2000x128_1_0_0_1_n_n_wf none l r p q

theorem mm_128_64 {φ₁ φ₂ : FTy} (l : FVec Ideal S2000x128 φ₁) (r : FVec Ideal S128x64 φ₂) (p : Fin 2000) (q : Fin 64) :
    matmul dot_S2000x128_S128x64_S2000x64_1_0_0_1_n_n none l r (constant S2000x64 .f32 0x00000000#32) (ix2 p q)
      = ∑ k : Fin 128, l (ix2 p k) * r (ix2 k q) :=
  Cert.LibContractPlain.matmulPlain_zero_apply 2000 128 64
    Facts₀.dot_S2000x128_S128x64_S2000x64_1_0_0_1_n_n_wf none l r p q

theorem mm_64_128 {φ₁ φ₂ : FTy} (l : FVec Ideal S2000x64 φ₁) (r : FVec Ideal S64x128 φ₂) (p : Fin 2000) (q : Fin 128) :
    matmul dot_S2000x64_S64x128_S2000x128_1_0_0_1_n_n none l r (constant S2000x128 .f32 0x00000000#32) (ix2 p q)
      = ∑ k : Fin 64, l (ix2 p k) * r (ix2 k q) :=
  Cert.LibContractPlain.matmulPlain_zero_apply 2000 64 128
    Facts₀.dot_S2000x64_S64x128_S2000x128_1_0_0_1_n_n_wf none l r p q

/-- The zero word is the real zero. -/
theorem zero_word : (FloatOps.ofBits (F := Ideal) .f32 0x00000000#32 : EReal) = 0 := Ideal.ofBits_zero_f32

/-! ## The first kernel's block -/

/-- The first convolution on a block: `relu (a · W1)` at `(p, q)`. -/
theorem pay2_apply (v2 : Vec Ideal S2000x128 .f32) (v5 : Vec Ideal S128x128 .f32) (p : Fin 2000) (q : Fin 128) :
    k0_pay2 (F := Ideal) v2 v5 (ix2 p q)
      = Cert.Spec.relu (Cert.Spec.dense (fun d => v2 (ix2 p d)) (fun d k => v5 (ix2 d k)) q) := by
  unfold k0_pay2
  rw [maximumf_apply, broadcast_apply, mm_128_128]
  simp only [truncf_apply, shapeCast_self]
  exact congrArg (max _) zero_word

/-- The first convolution times `W2` on a block. -/
theorem pay3_apply (v2 : Vec Ideal S2000x128 .f32) (v5 : Vec Ideal S128x128 .f32) (v7 : Vec Ideal S128x64 .f32)
    (p : Fin 2000) (j : Fin 64) :
    k0_pay3 (F := Ideal) v2 v5 v7 (ix2 p j)
      = Cert.Spec.dense (fun k => Cert.Spec.relu (Cert.Spec.dense (fun d => v2 (ix2 p d)) (fun d k' => v5 (ix2 d k')) k))
          (fun k j' => v7 (ix2 k j')) j := by
  unfold k0_pay3
  rw [mm_128_64]
  simp only [truncf_apply, pay2_apply]
  rfl

/-- The node's own path before its last bias: `relu (x · Wm1 + bm1) · Wm2`. -/
theorem pay4_apply (v0 : Vec Ideal S2000x128 .f32) (v9 : Vec Ideal S128x128 .f32) (v11 : Vec Ideal S128x64 .f32)
    (v21 : Vec Ideal S1x128 .f32) (p : Fin 2000) (j : Fin 64) :
    k0_pay4 (F := Ideal) v0 v9 v11 v21 (ix2 p j)
      = Cert.Spec.dense (fun k => Cert.Spec.relu (Cert.Spec.dense (fun d => v0 (ix2 p d)) (fun d k' => v9 (ix2 d k')) k
            + v21 (ix2 (0 : Fin 1) k))) (fun k j' => v11 (ix2 k j')) j := by
  unfold k0_pay4
  rw [mm_128_64]
  simp only [truncf_apply, maximumf_apply, broadcast_apply, addf_apply, mm_128_128, Cert.LibRowBias.rowBcast_apply,
    zero_word]
  rfl

/-- The node's own path: the last bias added to every row. -/
theorem pay1_apply (v0 : Vec Ideal S2000x128 .f32) (v9 : Vec Ideal S128x128 .f32) (v11 : Vec Ideal S128x64 .f32)
    (v21 : Vec Ideal S1x128 .f32) (v29 : Vec Ideal S1x64 .f32) (p : Fin 2000) (j : Fin 64) :
    k0_pay1 (F := Ideal) (k0_pay4 v0 v9 v11 v21) (k0_pay5 v29) (ix2 p j)
      = Cert.Spec.dense (fun k => Cert.Spec.relu (Cert.Spec.dense (fun d => v0 (ix2 p d)) (fun d k' => v9 (ix2 d k')) k
            + v21 (ix2 (0 : Fin 1) k))) (fun k j' => v11 (ix2 k j')) j + v29 (ix2 (0 : Fin 1) j) := by
  unfold k0_pay1 k0_pay5
  rw [addf_apply, Cert.LibRowBias.rowBcast_apply, pay4_apply]

/-! ## The second kernel's block -/

/-- The head on a block, the first product taken in three parts. -/
theorem payB_apply (v0 : Vec Ideal S2000x64 .f32) (v3 : Vec Ideal S2000x128 .f32) (v6 : Vec Ideal S2000x64 .f32)
    (v9 : Vec Ideal S64x128 .f32) (v11 : Vec Ideal S128x128 .f32) (v13 : Vec Ideal S64x128 .f32)
    (v20 : Vec Ideal S1x128 .f32) (v27 : Vec Ideal S128x64 .f32) (v30 : Vec Ideal S1x64 .f32) (p : Fin 2000) (j : Fin 64) :
    k1_pay1 (F := Ideal) v0 v3 v6 v9 v11 v13 v20 v27 v30 (ix2 p j)
      = Cert.Spec.dense (fun k => Cert.Spec.relu
            (((Cert.Spec.dense (fun i => v0 (ix2 p i)) (fun i k' => v9 (ix2 i k')) k
              + Cert.Spec.dense (fun i => v3 (ix2 p i)) (fun i k' => v11 (ix2 i k')) k)
              + Cert.Spec.dense (fun i => v6 (ix2 p i)) (fun i k' => v13 (ix2 i k')) k)
              + v20 (ix2 (0 : Fin 1) k))) (fun k j' => v27 (ix2 k j')) j + v30 (ix2 (0 : Fin 1) j) := by
  unfold k1_pay1
  rw [addf_apply, Cert.LibRowBias.rowBcast_apply, mm_128_64]
  simp only [truncf_apply, maximumf_apply, broadcast_apply, addf_apply, Cert.LibRowBias.rowBcast_apply, zero_word]
  simp only [shapeCast_self, truncf_apply, mm_128_128, mm_64_128]
  rfl

end Cert.KPay

end
-- ==== Proof.KRegA.lean ====
/-
  The first kernel's three output arrays, whole.

  The kernel runs over 25 blocks of 2000 consecutive node rows; block `t` of every row-tiled operand is rows
  `2000 t … 2000 t + 1999`, the weights and biases are staged whole at every point.  Each output block is written back
  whole, and the blocks tile the 50000 rows, so each output array ends as ONE function of the arrays the kernel
  found: row `n` of the output depends on row `n` of the node table and of the aggregated table, and on the weights.
-/
import proofs.«132948_j5471788335183_2_alg».proof.Proof.Gen.KernelIdeal.Frame
import proofs.«132948_j5471788335183_2_alg».proof.Proof.KPay

set_option maxRecDepth 16384

noncomputable section

namespace Cert.KRegA

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `2000 t + p` of the table. -/
def rowAt (t : Fin cfg0.N) (p : Fin 2000) : Fin 50000 :=
  ⟨t.val * 2000 + p.val, by have h := t.isLt; have hN : cfg0.N = 25 := N_0; omega⟩

/-- The block index maps, decided over the 25 points: the row-tiled windows are at block row `t`, column block 0;
    the weights and biases are at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-! ## The input blocks, in the table's coordinates -/

theorem blk0 (c : Dev nD) (t : Fin cfg0.N) (p : Fin 2000) (d : Fin 128) :
    (iblk0 V c 0 t : S2000x128.Idx → EReal) (ix2 p d) = (V c main_arg0 : S50000x128.Idx → EReal) (ix2 (rowAt t p) d) := by
  show (V c main_arg0 : S50000x128.Idx → EReal) (((cfg0.win 0).blk t).view.emb (ix2 p d)) = _
  refine congrArg (V c main_arg0 : S50000x128.Idx → EReal) (funext fun a => Fin.ext ?_)
  obtain ⟨e0, e1⟩ := (idx_facts t).1
  match a with
  | ⟨0, _⟩ => show win0_0.index t (0 : Fin 2) * 2000 + 1 * p.val = t.val * 2000 + p.val; omega
  | ⟨1, _⟩ => show win0_0.index t (1 : Fin 2) * 128 + 1 * d.val = d.val; omega

theorem blk1 (c : Dev nD) (t : Fin cfg0.N) (p : Fin 2000) (d : Fin 128) :
    (iblk0 V c 1 t : S2000x128.Idx → EReal) (ix2 p d) = (V c main_v14 : S50000x128.Idx → EReal) (ix2 (rowAt t p) d) := by
  show (V c main_v14 : S50000x128.Idx → EReal) (((cfg0.win 1).blk t).view.emb (ix2 p d)) = _
  refine congrArg (V c main_v14 : S50000x128.Idx → EReal) (funext fun a => Fin.ext ?_)
  obtain ⟨e0, e1⟩ := (idx_facts t).2.1
  match a with
  | ⟨0, _⟩ => show win0_1.index t (0 : Fin 2) * 2000 + 1 * p.val = t.val * 2000 + p.val; omega
  | ⟨1, _⟩ => show win0_1.index t (1 : Fin 2) * 128 + 1 * d.val = d.val; omega

theorem blk6 (c : Dev nD) (t : Fin cfg0.N) (d : Fin 128) (k : Fin 128) :
    (iblk0 V c 6 t : S128x128.Idx → EReal) (ix2 d k) = (V c main_arg4 : S128x128.Idx → EReal) (ix2 d k) := by
  show (V c main_arg4 : S128x128.Idx → EReal) (((cfg0.win 6).blk t).view.emb (ix2 d k)) = _
  refine congrArg (V c main_arg4 : S128x128.Idx → EReal) (funext fun a => Fin.ext ?_)
  obtain ⟨e0, e1⟩ := (idx_facts t).2.2.2.2.2.2.1
  match a with
  | ⟨0, _⟩ => show win0_6.index t (0 : Fin 2) * 128 + 1 * d.val = d.val; omega
  | ⟨1, _⟩ => show win0_6.index t (1 : Fin 2) * 128 + 1 * k.val = k.val; omega

theorem blk2 (c : Dev nD) (t : Fin cfg0.N) (r : Fin 128) (k : Fin 128) :
    (iblk0 V c 2 t : S128x128.Idx → EReal) (ix2 r k) = (V c main_arg6 : S128x128.Idx → EReal) (ix2 r k) := by
  show (V c main_arg6 : S128x128.Idx → EReal) (((cfg0.win 2).blk t).view.emb (ix2 r k)) = _
  refine congrArg (V c main_arg6 : S128x128.Idx → EReal) (funext fun a => Fin.ext ?_)
  obtain ⟨e0, e1⟩ := (idx_facts t).2.2.1
  match a with
  | ⟨0, _⟩ => show win0_2.index t (0 : Fin 2) * 128 + 1 * r.val = r.val; omega
  | ⟨1, _⟩ => show win0_2.index t (1 : Fin 2) * 128 + 1 * k.val = k.val; omega

theorem blk3 (c : Dev nD) (t : Fin cfg0.N) (r : Fin 1) (k : Fin 128) :
    (iblk0 V c 3 t : S1x128.Idx → EReal) (ix2 r k) = (V c main_v15 : S1x128.Idx → EReal) (ix2 r k) := by
  show (V c main_v15 : S1x128.Idx → EReal) (((cfg0.win 3).blk t).view.emb (ix2 r k)) = _
  refine congrArg (V c main_v15 : S1x128.Idx → EReal) (funext fun a => Fin.ext ?_)
  obtain ⟨e0, e1⟩ := (idx_facts t).2.2.2.1
  match a with
  | ⟨0, _⟩ => show win0_3.index t (0 : Fin 2) * 1 + 1 * r.val = r.val; omega
  | ⟨1, _⟩ => show win0_3.index t (1 : Fin 2) * 128 + 1 * k.val = k.val; omega

theorem blk4 (c : Dev nD) (t : Fin cfg0.N) (r : Fin 128) (k : Fin 64) :
    (iblk0 V c 4 t : S128x64.Idx → EReal) (ix2 r k) = (V c main_arg8 : S128x64.Idx → EReal) (ix2 r k) := by
  show (V c main_arg8 : S128x64.Idx → EReal) (((cfg0.win 4).blk t).view.emb (ix2 r k)) = _
  refine congrArg (V c main_arg8 : S128x64.Idx → EReal) (funext fun a => Fin.ext ?_)
  obtain ⟨e0, e1⟩ := (idx_facts t).2.2.2.2.1
  match a with
  | ⟨0, _⟩ => show win0_4.index t (0 : Fin 2) * 128 + 1 * r.val = r.val; omega
  | ⟨1, _⟩ => show win0_4.index t (1 : Fin 2) * 64 + 1 * k.val = k.val; omega

theorem blk5 (c : Dev nD) (t : Fin cfg0.N) (r : Fin 1) (k : Fin 64) :
    (iblk0 V c 5 t : S1x64.Idx → EReal) (ix2 r k) = (V c main_v16 : S1x64.Idx → EReal) (ix2 r k) := by
  show (V c main_v16 : S1x64.Idx → EReal) (((cfg0.win 5).blk t).view.emb (ix2 r k)) = _
  refine congrArg (V c main_v16 : S1x64.Idx → EReal) (funext fun a => Fin.ext ?_)
  obtain ⟨e0, e1⟩ := (idx_facts t).2.2.2.2.2.1
  match a with
  | ⟨0, _⟩ => show win0_5.index t (0 : Fin 2) * 1 + 1 * r.val = r.val; omega
  | ⟨1, _⟩ => show win0_5.index t (1 : Fin 2) * 64 + 1 * k.val = k.val; omega

theorem blk7 (c : Dev nD) (t : Fin cfg0.N) (r : Fin 128) (k : Fin 64) :
    (iblk0 V c 7 t : S128x64.Idx → EReal) (ix2 r k) = (V c main_arg5 : S128x64.Idx → EReal) (ix2 r k) := by
  show (V c main_arg5 : S128x64.Idx → EReal) (((cfg0.win 7).blk t).view.emb (ix2 r k)) = _
  refine congrArg (V c main_arg5 : S128x64.Idx → EReal) (funext fun a => Fin.ext ?_)
  obtain ⟨e0, e1⟩ := (idx_facts t).2.2.2.2.2.2.2.1
  match a with
  | ⟨0, _⟩ => show win0_7.index t (0 : Fin 2) * 128 + 1 * r.val = r.val; omega
  | ⟨1, _⟩ => show win0_7.index t (1 : Fin 2) * 64 + 1 * k.val = k.val; omega

/-! ## The first output: `relu (agg · W1)` -/

/-- The whole first output as a function of the aggregated table and `W1`. -/
def conv1Arr (a : S50000x128.Idx → EReal) (W1 : S128x128.Idx → EReal) : S50000x128.Idx → EReal :=
  fun i => Cert.Spec.relu (Cert.Spec.dense (fun d => a (ix2 (i 0) d)) (fun d k => W1 (ix2 d k)) (i 1))

theorem emb8 (t : Fin cfg0.N) (p : Fin 2000) (q : Fin 128) :
    ((cfg0.win 8).blk t).view.emb (ix2 p q) = (ix2 (rowAt t p) q : S50000x128.Idx) := by
  funext a; apply Fin.ext
  obtain ⟨e0, e1⟩ := (idx_facts t).2.2.2.2.2.2.2.2.1
  match a with
  | ⟨0, _⟩ => show win0_8.index t (0 : Fin 2) * 2000 + 1 * p.val = t.val * 2000 + p.val; omega
  | ⟨1, _⟩ => show win0_8.index t (1 : Fin 2) * 128 + 1 * q.val = q.val; omega

/-- What point `t` writes back to the first output is block `t` of `conv1Arr`. -/
theorem flushed8 (c : Dev nD) (t : Fin cfg0.N) :
    (dat0 V c).flushed 8 t = ((cfg0.win 8).blk t).view.read (Elt Ideal) (conv1Arr (V c main_v14) (V c main_arg4)) := by
  show (cfg0.win 8).cut (grid0.coords t) ((dat0 V c).after 8 t) = _
  rw [after0_8]
  unfold out0_8
  rw [View.canon_unit_zero hz]
  simp only [View.ld_unit_zero (S := S2000x128) hz, View.ld_unit_zero (S := S128x128) hz]
  funext y
  obtain ⟨p, q, rfl⟩ : ∃ (p : Fin 2000) (q : Fin 128), y = ix2 p q := ⟨y 0, y 1, eq_ix2 y⟩
  refine (Cert.KPay.pay2_apply _ _ p q).trans ?_
  show _ = conv1Arr (V c main_v14) (V c main_arg4) (((cfg0.win 8).blk t).view.emb (ix2 p q))
  rw [emb8]
  simp only [blk1, blk6]
  rfl

theorem mem_blk8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v19_0).slice (win0_8.rect t)).set ↔ _
  rw [View.set_slice_whole, Rect.mem_set_unit]
  exact Iff.rfl

/-- Every entry of the first output lies in the block of the point `n / 2000`. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  let t : Fin cfg0.N := ⟨(i 0).val / 2000, by omega⟩
  refine ⟨t, flush0_8 t, ?_⟩
  rw [mem_blk8]
  obtain ⟨e0, e1⟩ := (idx_facts t).2.2.2.2.2.2.2.2.1
  have ht : t.val = (i 0).val / 2000 := rfl
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- THE FIRST OUTPUT ARRAY after the kernel. -/
theorem final8 (c : Dev nD) : (dat0 V c).arrAt 8 cfg0.N = conv1Arr (V c main_v14) (V c main_arg4) :=
  (dat0 V c).arrAt_eq_of_cover 8 _ (fun t _ => flushed8 V c t) (fun i => cover8 i)

/-! ## The third output: `relu (agg · W1) · W2` -/

/-- The whole third output as a function of the aggregated table, `W1` and `W2`. -/
def tArr (a : S50000x128.Idx → EReal) (W1 : S128x128.Idx → EReal) (W2 : S128x64.Idx → EReal) : S50000x64.Idx → EReal :=
  fun i => Cert.Spec.dense (fun k => Cert.Spec.relu (Cert.Spec.dense (fun d => a (ix2 (i 0) d)) (fun d k' => W1 (ix2 d k')) k))
    (fun k j' => W2 (ix2 k j')) (i 1)

theorem emb10 (t : Fin cfg0.N) (p : Fin 2000) (q : Fin 64) :
    ((cfg0.win 10).blk t).view.emb (ix2 p q) = (ix2 (rowAt t p) q : S50000x64.Idx) := by
  funext a; apply Fin.ext
  obtain ⟨e0, e1⟩ := (idx_facts t).2.2.2.2.2.2.2.2.2.2
  match a with
  | ⟨0, _⟩ => show win0_10.index t (0 : Fin 2) * 2000 + 1 * p.val = t.val * 2000 + p.val; omega
  | ⟨1, _⟩ => show win0_10.index t (1 : Fin 2) * 64 + 1 * q.val = q.val; omega

/-- What point `t` writes back to the third output is block `t` of `tArr`. -/
theorem flushed10 (c : Dev nD) (t : Fin cfg0.N) :
    (dat0 V c).flushed 10 t = ((cfg0.win 10).blk t).view.read (Elt Ideal) (tArr (V c main_v14) (V c main_arg4) (V c main_arg5)) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x128) hz, View.ld_unit_zero (S := S128x64) hz]
  funext y
  obtain ⟨p, q, rfl⟩ : ∃ (p : Fin 2000) (q : Fin 64), y = ix2 p q := ⟨y 0, y 1, eq_ix2 y⟩
  refine (Cert.KPay.pay3_apply _ _ _ p q).trans ?_
  show _ = tArr (V c main_v14) (V c main_arg4) (V c main_arg5) (((cfg0.win 10).blk t).view.emb (ix2 p q))
  rw [emb10]
  simp only [blk1, blk6, blk7]
  rfl

theorem mem_blk10 (t : Fin cfg0.N) (i : S50000x64.Idx) :
    i ∈ ((cfg0.win 10).blk t).view.set ↔ ∀ a : Fin 2, win0_10.index t a * S2000x64.size a ≤ (i a).val
      ∧ (i a).val < win0_10.index t a * S2000x64.size a + S2000x64.size a := by
  show i ∈ ((View.whole main_v19_2).slice (win0_10.rect t)).set ↔ _
  rw [View.set_slice_whole, Rect.mem_set_unit]
  exact Iff.rfl

/-- Every entry of this output lies in the block of the point `n / 2000`. -/
theorem cover10 (i : S50000x64.Idx) :
    ∃ t : Fin cfg0.N, (cfg0.win 10).flush t = true ∧ i ∈ ((cfg0.win 10).blk t).view.set := by
  have hi0 : (i 0).val < 50000 := (i 0).isLt
  have hi1 : (i 1).val < 64 := (i 1).isLt
  have hN : cfg0.N = 25 := N_0
  let t : Fin cfg0.N := ⟨(i 0).val / 2000, by omega⟩
  refine ⟨t, flush0_10 t, ?_⟩
  rw [mem_blk10]
  obtain ⟨e0, e1⟩ := (idx_facts t).2.2.2.2.2.2.2.2.2.2
  have ht : t.val = (i 0).val / 2000 := rfl
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 64 ≤ (i 1).val ∧ (i 1).val < win0_10.index t (1 : Fin 2) * 64 + 64; omega

/-- THE THIRD OUTPUT ARRAY after the kernel. -/
theorem final10 (c : Dev nD) : (dat0 V c).arrAt 10 cfg0.N = tArr (V c main_v14) (V c main_arg4) (V c main_arg5) :=
  (dat0 V c).arrAt_eq_of_cover 10 _ (fun t _ => flushed10 V c t) (fun i => cover10 i)

/-! ## The second output: `relu (x · Wm1 + bm1) · Wm2 + bm2` -/

/-- The whole second output as a function of the node table and the own path's weights and biases. -/
def selfArr (x : S50000x128.Idx → EReal) (Wm1 : S128x128.Idx → EReal) (bm1 : S1x128.Idx → EReal)
    (Wm2 : S128x64.Idx → EReal) (bm2 : S1x64.Idx → EReal) : S50000x64.Idx → EReal :=
  fun i => Cert.Spec.dense (fun k => Cert.Spec.relu (Cert.Spec.dense (fun d => x (ix2 (i 0) d)) (fun d k' => Wm1 (ix2 d k')) k
      + bm1 (ix2 (0 : Fin 1) k))) (fun k j' => Wm2 (ix2 k j')) (i 1) + bm2 (ix2 (0 : Fin 1) (i 1))

theorem emb9 (t : Fin cfg0.N) (p : Fin 2000) (q : Fin 64) :
    ((cfg0.win 9).blk t).view.emb (ix2 p q) = (ix2 (rowAt t p) q : S50000x64.Idx) := by
  funext a; apply Fin.ext
  obtain ⟨e0, e1⟩ := (idx_facts t).2.2.2.2.2.2.2.2.2.1
  match a with
  | ⟨0, _⟩ => show win0_9.index t (0 : Fin 2) * 2000 + 1 * p.val = t.val * 2000 + p.val; omega
  | ⟨1, _⟩ => show win0_9.index t (1 : Fin 2) * 64 + 1 * q.val = q.val; omega

/-- What point `t` writes back to the second output is block `t` of `selfArr`. -/
theorem flushed9 (c : Dev nD) (t : Fin cfg0.N) :
    (dat0 V c).flushed 9 t = ((cfg0.win 9).blk t).view.read (Elt Ideal)
      (selfArr (V c main_arg0) (V c main_arg6) (V c main_v15) (V c main_arg8) (V c main_v16)) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x128) hz, View.ld_unit_zero (S := S128x64) hz,
    View.ld_unit_zero (S := S1x128) hz, View.ld_unit_zero (S := S1x64) hz]
  funext y
  obtain ⟨p, q, rfl⟩ : ∃ (p : Fin 2000) (q : Fin 64), y = ix2 p q := ⟨y 0, y 1, eq_ix2 y⟩
  refine (Cert.KPay.pay1_apply _ _ _ _ _ p q).trans ?_
  show _ = selfArr (V c main_arg0) (V c main_arg6) (V c main_v15) (V c main_arg8) (V c main_v16) (((cfg0.win 9).blk t).view.emb (ix2 p q))
  rw [emb9]
  simp only [blk0, blk2, blk3, blk4, blk5]
  rfl

theorem mem_blk9 (t : Fin cfg0.N) (i : S50000x64.Idx) :
    i ∈ ((cfg0.win 9).blk t).view.set ↔ ∀ a : Fin 2, win0_9.index t a * S2000x64.size a ≤ (i a).val
      ∧ (i a).val < win0_9.index t a * S2000x64.size a + S2000x64.size a := by
  show i ∈ ((View.whole main_v19_1).slice (win0_9.rect t)).set ↔ _
  rw [View.set_slice_whole, Rect.mem_set_unit]
  exact Iff.rfl

/-- Every entry of this output lies in the block of the point `n / 2000`. -/
theorem cover9 (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  have hN : cfg0.N = 25 := N_0
  let t : Fin cfg0.N := ⟨(i 0).val / 2000, by omega⟩
  refine ⟨t, flush0_9 t, ?_⟩
  rw [mem_blk9]
  obtain ⟨e0, e1⟩ := (idx_facts t).2.2.2.2.2.2.2.2.2.1
  have ht : t.val = (i 0).val / 2000 := rfl
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 64 ≤ (i 1).val ∧ (i 1).val < win0_9.index t (1 : Fin 2) * 64 + 64; omega

/-- THE SECOND OUTPUT ARRAY after the kernel. -/
theorem final9 (c : Dev nD) : (dat0 V c).arrAt 9 cfg0.N = selfArr (V c main_arg0) (V c main_arg6) (V c main_v15) (V c main_arg8) (V c main_v16) :=
  (dat0 V c).arrAt_eq_of_cover 9 _ (fun t _ => flushed9 V c t) (fun i => cover9 i)

end Cert.KRegA

end
-- ==== Proof.KRegB.lean ====
/-
  The second kernel's output array, whole.

  Like the first, it runs over 25 blocks of 2000 consecutive node rows: block `t` of the three row-tiled inputs (the
  node's own path, the first convolution, the second aggregation) is rows `2000 t … 2000 t + 1999`; the head's two
  matrices and two biases are staged whole, and the body reads the first matrix as its three row blocks — rows
  0–63, 64–191 and 192–255.  Each output block is written back whole and the blocks tile the rows, so the output
  array ends as one function of the arrays the kernel found: row `n` is the head applied to row `n` of the three
  inputs, its first product taken block by block.
-/
import proofs.«132948_j5471788335183_2_alg».proof.Proof.Gen.KernelIdeal.Frame
import proofs.«132948_j5471788335183_2_alg».proof.Proof.KPay

set_option maxRecDepth 16384

noncomputable section

namespace Cert.KRegB

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `2000 t + p` of the table. -/
def rowAt (t : Fin cfg1.N) (p : Fin 2000) : Fin 50000 :=
  ⟨t.val * 2000 + p.val, by have h := t.isLt; have hN : cfg1.N = 25 := N_1; omega⟩

/-- The block index maps, decided over the 25 points: the row-tiled windows are at block row `t`, column block 0;
    the weights and biases are at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-! ## The input blocks, in the tables' coordinates -/

theorem blk0 (c : Dev nD) (t : Fin cfg1.N) (p : Fin 2000) (d : Fin 64) :
    (iblk1 V c 0 t : S2000x64.Idx → EReal) (ix2 p d) = (V c main_v19_1 : S50000x64.Idx → EReal) (ix2 (rowAt t p) d) := by
  show (V c main_v19_1 : S50000x64.Idx → EReal) (((cfg1.win 0).blk t).view.emb (ix2 p d)) = _
  refine congrArg (V c main_v19_1 : S50000x64.Idx → EReal) (funext fun a => Fin.ext ?_)
  obtain ⟨e0, e1⟩ := (idx_facts t).1
  match a with
  | ⟨0, _⟩ => show win1_0.index t (0 : Fin 2) * 2000 + 1 * p.val = t.val * 2000 + p.val; omega
  | ⟨1, _⟩ => show win1_0.index t (1 : Fin 2) * 64 + 1 * d.val = d.val; omega

theorem blk1 (c : Dev nD) (t : Fin cfg1.N) (p : Fin 2000) (d : Fin 128) :
    (iblk1 V c 1 t : S2000x128.Idx → EReal) (ix2 p d) = (V c main_v19_0 : S50000x128.Idx → EReal) (ix2 (rowAt t p) d) := by
  show (V c main_v19_0 : S50000x128.Idx → EReal) (((cfg1.win 1).blk t).view.emb (ix2 p d)) = _
  refine congrArg (V c main_v19_0 : S50000x128.Idx → EReal) (funext fun a => Fin.ext ?_)
  obtain ⟨e0, e1⟩ := (idx_facts t).2.1
  match a with
  | ⟨0, _⟩ => show win1_1.index t (0 : Fin 2) * 2000 + 1 * p.val = t.val * 2000 + p.val; omega
  | ⟨1, _⟩ => show win1_1.index t (1 : Fin 2) * 128 + 1 * d.val = d.val; omega

theorem blk2 (c : Dev nD) (t : Fin cfg1.N) (p : Fin 2000) (d : Fin 64) :
    (iblk1 V c 2 t : S2000x64.Idx → EReal) (ix2 p d) = (V c main_v34 : S50000x64.Idx → EReal) (ix2 (rowAt t p) d) := by
  show (V c main_v34 : S50000x64.Idx → EReal) (((cfg1.win 2).blk t).view.emb (ix2 p d)) = _
  refine congrArg (V c main_v34 : S50000x64.Idx → EReal) (funext fun a => Fin.ext ?_)
  obtain ⟨e0, e1⟩ := (idx_facts t).2.2.1
  match a with
  | ⟨0, _⟩ => show win1_2.index t (0 : Fin 2) * 2000 + 1 * p.val = t.val * 2000 + p.val; omega
  | ⟨1, _⟩ => show win1_2.index t (1 : Fin 2) * 64 + 1 * d.val = d.val; omega

theorem blk3 (c : Dev nD) (t : Fin cfg1.N) (r : Fin 256) (k : Fin 128) :
    (iblk1 V c 3 t : S256x128.Idx → EReal) (ix2 r k) = (V c main_arg10 : S256x128.Idx → EReal) (ix2 r k) := by
  show (V c main_arg10 : S256x128.Idx → EReal) (((cfg1.win 3).blk t).view.emb (ix2 r k)) = _
  refine congrArg (V c main_arg10 : S256x128.Idx → EReal) (funext fun a => Fin.ext ?_)
  obtain ⟨e0, e1⟩ := (idx_facts t).2.2.2.1
  match a with
  | ⟨0, _⟩ => show win1_3.index t (0 : Fin 2) * 256 + 1 * r.val = r.val; omega
  | ⟨1, _⟩ => show win1_3.index t (1 : Fin 2) * 128 + 1 * k.val = k.val; omega

theorem blk4 (c : Dev nD) (t : Fin cfg1.N) (r : Fin 1) (k : Fin 128) :
    (iblk1 V c 4 t : S1x128.Idx → EReal) (ix2 r k) = (V c main_v17 : S1x128.Idx → EReal) (ix2 r k) := by
  show (V c main_v17 : S1x128.Idx → EReal) (((cfg1.win 4).blk t).view.emb (ix2 r k)) = _
  refine congrArg (V c main_v17 : S1x128.Idx → EReal) (funext fun a => Fin.ext ?_)
  obtain ⟨e0, e1⟩ := (idx_facts t).2.2.2.2.1
  match a with
  | ⟨0, _⟩ => show win1_4.index t (0 : Fin 2) * 1 + 1 * r.val = r.val; omega
  | ⟨1, _⟩ => show win1_4.index t (1 : Fin 2) * 128 + 1 * k.val = k.val; omega

theorem blk5 (c : Dev nD) (t : Fin cfg1.N) (r : Fin 128) (k : Fin 64) :
    (iblk1 V c 5 t : S128x64.Idx → EReal) (ix2 r k) = (V c main_arg12 : S128x64.Idx → EReal) (ix2 r k) := by
  show (V c main_arg12 : S128x64.Idx → EReal) (((cfg1.win 5).blk t).view.emb (ix2 r k)) = _
  refine congrArg (V c main_arg12 : S128x64.Idx → EReal) (funext fun a => Fin.ext ?_)
  obtain ⟨e0, e1⟩ := (idx_facts t).2.2.2.2.2.1
  match a with
  | ⟨0, _⟩ => show win1_5.index t (0 : Fin 2) * 128 + 1 * r.val = r.val; omega
  | ⟨1, _⟩ => show win1_5.index t (1 : Fin 2) * 64 + 1 * k.val = k.val; omega

theorem blk6 (c : Dev nD) (t : Fin cfg1.N) (r : Fin 1) (k : Fin 64) :
    (iblk1 V c 6 t : S1x64.Idx → EReal) (ix2 r k) = (V c main_v18 : S1x64.Idx → EReal) (ix2 r k) := by
  show (V c main_v18 : S1x64.Idx → EReal) (((cfg1.win 6).blk t).view.emb (ix2 r k)) = _
  refine congrArg (V c main_v18 : S1x64.Idx → EReal) (funext fun a => Fin.ext ?_)
  obtain ⟨e0, e1⟩ := (idx_facts t).2.2.2.2.2.2.1
  match a with
  | ⟨0, _⟩ => show win1_6.index t (0 : Fin 2) * 1 + 1 * r.val = r.val; omega
  | ⟨1, _⟩ => show win1_6.index t (1 : Fin 2) * 64 + 1 * k.val = k.val; omega

/-! ## The three row blocks of the head's first matrix -/

theorem idxWa (i : Fin 64) (k : Fin 128) :
    r1_2.idx (ix2 i k) = (ix2 ⟨i.val, by omega⟩ k : S256x128.Idx) := by
  funext a; apply Fin.ext
  match a with
  | ⟨0, _⟩ => show 0 + 1 * i.val = i.val; omega
  | ⟨1, _⟩ => show 0 + 1 * k.val = k.val; omega

theorem idxWb (i : Fin 128) (k : Fin 128) :
    r1_3.idx (ix2 i k) = (ix2 ⟨64 + i.val, by omega⟩ k : S256x128.Idx) := by
  funext a; apply Fin.ext
  match a with
  | ⟨0, _⟩ => show 64 + 1 * i.val = 64 + i.val; omega
  | ⟨1, _⟩ => show 0 + 1 * k.val = k.val; omega

theorem idxWc (i : Fin 64) (k : Fin 128) :
    r1_4.idx (ix2 i k) = (ix2 ⟨192 + i.val, by omega⟩ k : S256x128.Idx) := by
  funext a; apply Fin.ext
  match a with
  | ⟨0, _⟩ => show 192 + 1 * i.val = 192 + i.val; omega
  | ⟨1, _⟩ => show 0 + 1 * k.val = k.val; omega

/-- The head on a block whose three matrix blocks are loaded from ONE staged matrix `x3`: the specification's
    three-part head on the block's rows and that matrix. -/
theorem payB_ld (x0 : Vec Ideal S2000x64 .f32) (x1 : Vec Ideal S2000x128 .f32) (x2 : Vec Ideal S2000x64 .f32)
    (x3 : Vec Ideal S256x128 .f32) (x4 : Vec Ideal S1x128 .f32) (x5 : Vec Ideal S128x64 .f32) (x6 : Vec Ideal S1x64 .f32)
    (p : Fin 2000) (j : Fin 64) :
    k1_pay1 (F := Ideal) x0 x1 x2 (View.ld x3 r1_2) (View.ld x3 r1_3) (View.ld x3 r1_4) x4 x5 x6 (ix2 p j)
      = Cert.Spec.headK (fun a => x0 (ix2 p a)) (fun a => x1 (ix2 p a)) (fun a => x2 (ix2 p a))
          (fun a k => x3 (ix2 a k)) (fun k => x4 (ix2 (0 : Fin 1) k)) (fun k j' => x5 (ix2 k j'))
          (fun j' => x6 (ix2 (0 : Fin 1) j')) j := by
  rw [Cert.KPay.payB_apply]
  simp only [View.ld, idxWa, idxWb, idxWc]
  rfl

/-! ## The output: the head, its first product in three parts -/

/-- The whole output as a function of the three row-tiled inputs and the head's weights and biases. -/
def headArr (s : S50000x64.Idx → EReal) (c1 : S50000x128.Idx → EReal) (g : S50000x64.Idx → EReal)
    (Wh1 : S256x128.Idx → EReal) (b1 : S1x128.Idx → EReal) (Wh2 : S128x64.Idx → EReal) (b2 : S1x64.Idx → EReal) :
    S50000x64.Idx → EReal :=
  fun i => Cert.Spec.headK (fun a => s (ix2 (i 0) a)) (fun a => c1 (ix2 (i 0) a)) (fun a => g (ix2 (i 0) a))
    (fun a k => Wh1 (ix2 a k)) (fun k => b1 (ix2 (0 : Fin 1) k)) (fun k j => Wh2 (ix2 k j)) (fun j => b2 (ix2 (0 : Fin 1) j)) (i 1)

theorem emb7 (t : Fin cfg1.N) (p : Fin 2000) (q : Fin 64) :
    ((cfg1.win 7).blk t).view.emb (ix2 p q) = (ix2 (rowAt t p) q : S50000x64.Idx) := by
  funext a; apply Fin.ext
  obtain ⟨e0, e1⟩ := (idx_facts t).2.2.2.2.2.2.2
  match a with
  | ⟨0, _⟩ => show win1_7.index t (0 : Fin 2) * 2000 + 1 * p.val = t.val * 2000 + p.val; omega
  | ⟨1, _⟩ => show win1_7.index t (1 : Fin 2) * 64 + 1 * q.val = q.val; omega

/-- What point `t` writes back is block `t` of `headArr`. -/
theorem flushed7 (c : Dev nD) (t : Fin cfg1.N) :
    (dat1 V c).flushed 7 t = ((cfg1.win 7).blk t).view.read (Elt Ideal)
      (headArr (V c main_v19_1) (V c main_v19_0) (V c main_v34) (V c main_arg10) (V c main_v17) (V c main_arg12) (V c main_v18)) := by
  show (cfg1.win 7).cut (grid1.coords t) ((dat1 V c).after 7 t) = _
  rw [after1_7]
  unfold out1_7
  rw [View.canon_unit_zero hz]
  simp only [View.ld_unit_zero (S := S2000x64) hz, View.ld_unit_zero (S := S2000x128) hz, View.ld_unit_zero (S := S128x64) hz,
    View.ld_unit_zero (S := S1x128) hz, View.ld_unit_zero (S := S1x64) hz]
  funext y
  obtain ⟨p, q, rfl⟩ : ∃ (p : Fin 2000) (q : Fin 64), y = ix2 p q := ⟨y 0, y 1, eq_ix2 y⟩
  refine (payB_ld _ _ _ _ _ _ _ p q).trans ?_
  show _ = headArr (V c main_v19_1) (V c main_v19_0) (V c main_v34) (V c main_arg10) (V c main_v17) (V c main_arg12) (V c main_v18)
    (((cfg1.win 7).blk t).view.emb (ix2 p q))
  rw [emb7]
  simp only [blk0, blk1, blk2, blk3, blk4, blk5, blk6]
  rfl

theorem mem_blk7 (t : Fin cfg1.N) (i : S50000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v35).slice (win1_7.rect t)).set ↔ _
  rw [View.set_slice_whole, Rect.mem_set_unit]
  exact Iff.rfl

/-- Every entry of this output lies in the block of the point `n / 2000`. -/
theorem cover7 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 25 := N_1
  let t : Fin cfg1.N := ⟨(i 0).val / 2000, by omega⟩
  refine ⟨t, flush1_7 t, ?_⟩
  rw [mem_blk7]
  obtain ⟨e0, e1⟩ := (idx_facts t).2.2.2.2.2.2.2
  have ht : t.val = (i 0).val / 2000 := rfl
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 64 ≤ (i 1).val ∧ (i 1).val < win1_7.index t (1 : Fin 2) * 64 + 64; omega

/-- THE OUTPUT ARRAY after the kernel. -/
theorem final7 (c : Dev nD) : (dat1 V c).arrAt 7 cfg1.N = headArr (V c main_v19_1) (V c main_v19_0) (V c main_v34) (V c main_arg10) (V c main_v17) (V c main_arg12) (V c main_v18) :=
  (dat1 V c).arrAt_eq_of_cover 7 _ (fun t _ => flushed7 V c t) (fun i => cover7 i)

end Cert.KRegB

end
-- ==== Proof.LibGatherScatter.lean ====
/-
  General lemmas about StableHLO's indexed reads and writes, read at one index, and about the sums they produce.

  * A ROW GATHER (operand `[N, C]`, start indices `[R, 1]`, result `[R, C]`) and an ELEMENT GATHER (operand `[N]`,
    start indices `[R, 1]`, result `[R]`) read at an index: the operand at the start index, read signed and clamped
    into `[0, N − 1]` (`rowGather_apply`, `eltGather_apply`).
  * A ROW SCATTER-ADD (operand `[N, C]`, scatter indices `[R, 1]`, updates `[R, C]`) and an ELEMENT SCATTER-ADD
    (operand `[N]`, updates `[R]`) read at an index, over the extended reals: the operand's element plus the sum of
    the updates whose scatter index, read signed and NOT clamped, is that row (`rowScatterAdd_apply`,
    `eltScatterAdd_apply`).
  * Sums over a filtered index range that is the concatenation of two ranges, and a filter that holds at exactly one
    point (`sum_filter_split`, `sum_filter_single`).
  * A nonnegative real factor moved across an extended-real sum, with no finiteness asked of the summands
    (`coe_mul_sum`, `scale_law`).
  * The index normalisation applied before a gather (a negative index is shifted up by the extent) on an index that
    is a row number already (`clampRow_of_hit`, `clampRow_ofNat`, `toInt_ofNat_lt`).
-/
import Idealize.ShloMosaic.Lib.ValueIdx
import Idealize.ShloMosaic.Lib.Pipeline.Value
import Idealize.ShloMosaic.PureOps.Ideal.Laws

noncomputable section

open scoped BigOperators

namespace Cert.LibGS

open Idealize.ShloMosaic Idealize.ShloMosaic.ValueIdx

/-- A signed word read as a row number of an `N`-row table: its value clamped into `[0, N − 1]`. -/
def clampRow (N : Nat) (hN : 0 < N) {w : Nat} (v : BitVec w) : Fin N := ⟨min v.toInt.toNat (N - 1), by omega⟩

/-! ## A row gather -/

/-- The dimension numbers of a row gather: operand `[N, C]`, start indices `[R, 1]`, result `[R, C]`; the one
    start-index component names the row axis, which is collapsed, and the slice is one whole row. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped, column `c`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (clampRow N hN (idx (ix2 e 0))) c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = _
    rw [GatherDims.batchCoord_eq_zero _ _ _ List.not_mem_nil]
    unfold GatherDims.start
    rw [dif_neg (show (1 : Fin 2) ∉ (rowGatherDims N R C wf).startIndexMap from (by decide : (1 : Fin 2) ∉ [(0 : Fin 2)]))]
    simp only [Nat.add_zero, Nat.zero_add]
    unfold GatherDims.offCoord
    rw [dif_pos (show (1 : Fin 2) ∈ (rowGatherDims N R C wf).sKept from
      (GatherDims.mem_sKept _ _).mpr ⟨(by decide : (1 : Fin 2) ∉ [(0 : Fin 2)]), List.not_mem_nil⟩)]
    rfl

/-! ## A row scatter-add -/

/-- The dimension numbers of a row scatter: operand `[N, C]`, scatter indices `[R, 1]`, updates `[R, C]`; the one
    scatter-index component names the row axis, which is inserted, and the update window is one whole row. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where update `(e, c')` of a row scatter lands: at `(n, c)` exactly when its scatter index, read signed, is `n`
    and `c' = c`; an index outside `[0, N)` lands nowhere. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (c' : Fin C) (n : Fin N) (c : Fin C) :
    (rowScatterDims N R C wf).resultIdx? (ix2 e c') idx = some (ix2 n c)
      ↔ ((idx (ix2 e 0)).toInt = (n.val : Int) ∧ c' = c) := by
  have hs0 : (rowScatterDims N R C wf).start (ix2 e c') idx 0 = (idx (ix2 e 0)).toInt := by
    unfold ScatterDims.start
    rw [dif_pos (show (0 : Fin 2) ∈ (rowScatterDims N R C wf).scatterDimsToOperandDims from List.mem_singleton.mpr rfl)]
    have hsi : (rowScatterDims N R C wf).siIdx (ix2 e c')
        ⟨List.idxOf (0 : Fin 2) (rowScatterDims N R C wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (rowScatterDims N R C wf).start (ix2 e c') idx 1 = 0 := by
    unfold ScatterDims.start
    rw [dif_neg (show (1 : Fin 2) ∉ (rowScatterDims N R C wf).scatterDimsToOperandDims from
      (by decide : (1 : Fin 2) ∉ [(0 : Fin 2)]))]
  have hw0 : (rowScatterDims N R C wf).window (ix2 e c') 0 = 0 := by
    unfold ScatterDims.window
    rw [dif_neg (show (0 : Fin 2) ∉ (rowScatterDims N R C wf).sKept from by
      simp [ScatterDims.sKept, Shape.kept])]
  have hw1 : (rowScatterDims N R C wf).window (ix2 e c') 1 = c'.val := by
    unfold ScatterDims.window
    rw [dif_pos (show (1 : Fin 2) ∈ (rowScatterDims N R C wf).sKept from by
      simp [ScatterDims.sKept, Shape.kept])]
    rfl
  unfold ScatterDims.resultIdx?
  split
  · rename_i h
    rw [Option.some.injEq]
    constructor
    · intro hf
      have h0 := congrArg (fun f => (f 0).val) hf
      have h1 := congrArg (fun f => (f 1).val) hf
      have g0 := (h 0).1
      simp only [hs0, hw0] at h0 g0
      simp only [hs1, hw1] at h1
      refine ⟨?_, Fin.ext ?_⟩
      · change ((idx (ix2 e 0)).toInt + ((0 : Nat) : Int)).toNat = n.val at h0
        omega
      · change ((0 : Int) + (c'.val : Int)).toNat = c.val at h1
        omega
    · rintro ⟨hA, rfl⟩
      funext a; refine Fin.ext ?_
      match a with
      | ⟨0, _⟩ =>
        show ((rowScatterDims N R C wf).start (ix2 e c') idx 0 + ((rowScatterDims N R C wf).window (ix2 e c') 0 : Nat)).toNat = n.val
        rw [hs0, hw0, hA]; simp
      | ⟨1, _⟩ =>
        show ((rowScatterDims N R C wf).start (ix2 e c') idx 1 + ((rowScatterDims N R C wf).window (ix2 e c') 1 : Nat)).toNat = c'.val
        rw [hs1, hw1]; simp
  · rename_i h
    constructor
    · intro hf; exact absurd hf (by simp)
    · rintro ⟨hA, rfl⟩
      exfalso; apply h
      intro a
      match a with
      | ⟨0, _⟩ =>
        show 0 ≤ (rowScatterDims N R C wf).start (ix2 e c') idx 0 + ((rowScatterDims N R C wf).window (ix2 e c') 0 : Nat)
          ∧ (rowScatterDims N R C wf).start (ix2 e c') idx 0 + ((rowScatterDims N R C wf).window (ix2 e c') 0 : Nat) < (N : Int)
        rw [hs0, hw0, hA]; have := n.isLt; omega
      | ⟨1, _⟩ =>
        show 0 ≤ (rowScatterDims N R C wf).start (ix2 e c') idx 1 + ((rowScatterDims N R C wf).window (ix2 e c') 1 : Nat)
          ∧ (rowScatterDims N R C wf).start (ix2 e c') idx 1 + ((rowScatterDims N R C wf).window (ix2 e c') 1 : Nat) < (C : Int)
        rw [hs1, hw1]; have := c'.isLt; omega

/-- THE ROW SCATTER-ADD READ AT `(n, c)`, over the extended reals: the operand's element plus the sum of column `c`
    of the updates whose scatter index, read signed and not clamped, is `n`. -/
theorem rowScatterAdd_apply {φ : FTy} {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Host.scatterAdd (F := Ideal) (φ := φ) (rowScatterDims N R C wf) x idx upd (ix2 n c)
      = x (ix2 n c) + ∑ e ∈ Finset.univ.filter (fun e : Fin R => (idx (ix2 e 0)).toInt = (n.val : Int)), upd (ix2 e c) := by
  show x (ix2 n c) + ∑ j ∈ Finset.univ.filter
    (fun j => (rowScatterDims N R C wf).resultIdx? j idx = some (ix2 n c)), upd j = _
  congr 1
  rw [Finset.sum_filter, sum_idx2, Finset.sum_filter]
  refine Finset.sum_congr rfl fun e _ => ?_
  simp only [rowScatter_resultIdx_iff]
  by_cases hA : (idx (ix2 e 0)).toInt = (n.val : Int)
  · simp [hA]
  · simp [hA]

/-! ## An element gather -/

/-- The dimension numbers of an element gather: operand `[N]`, start indices `[R, 1]`, result `[R]`. -/
abbrev eltGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped. -/
theorem eltGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (eltGatherDims N R wf) x idx (ix1 e) = x (ix1 (clampRow N hN (idx (ix2 e 0)))) := by
  unfold Host.gather
  congr 1
  funext a
  obtain rfl : a = 0 := Subsingleton.elim _ _
  refine Fin.ext ?_
  show (eltGatherDims N R wf).start (ix1 e) idx 0 + (eltGatherDims N R wf).batchCoord (ix1 e) 0
    + (eltGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N R wf).startIndexMap from List.mem_singleton.mpr rfl)]
  have hsi : (eltGatherDims N R wf).siIdx (ix1 e) ⟨List.idxOf (0 : Fin 1) (eltGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An element scatter-add -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an element scatter: operand `[N]`, scatter indices `[R, 1]`, updates `[R]`. -/
abbrev eltScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `e` of an element scatter lands: at `n` exactly when its scatter index, read signed, is `n`. -/
theorem eltScatter_resultIdx_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (eltScatterDims N R wf).resultIdx? (ix1 e) idx = some (ix1 n) ↔ (idx (ix2 e 0)).toInt = (n.val : Int) := by
  have hs0 : (eltScatterDims N R wf).start (ix1 e) idx 0 = (idx (ix2 e 0)).toInt := by
    unfold ScatterDims.start
    rw [dif_pos (show (0 : Fin 1) ∈ (eltScatterDims N R wf).scatterDimsToOperandDims from List.mem_singleton.mpr rfl)]
    have hsi : (eltScatterDims N R wf).siIdx (ix1 e)
        ⟨List.idxOf (0 : Fin 1) (eltScatterDims N R wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (eltScatterDims N R wf).window (ix1 e) 0 = 0 := by
    unfold ScatterDims.window
    rw [dif_neg (show (0 : Fin 1) ∉ (eltScatterDims N R wf).sKept from by
      simp [ScatterDims.sKept, Shape.kept])]
  unfold ScatterDims.resultIdx?
  split
  · rename_i h
    rw [Option.some.injEq]
    constructor
    · intro hf
      have h0 := congrArg (fun f => (f 0).val) hf
      have g0 := (h 0).1
      simp only [hs0, hw0] at h0 g0
      change ((idx (ix2 e 0)).toInt + ((0 : Nat) : Int)).toNat = n.val at h0
      omega
    · intro hA
      funext a
      obtain rfl : a = 0 := Subsingleton.elim _ _
      refine Fin.ext ?_
      show ((eltScatterDims N R wf).start (ix1 e) idx 0 + ((eltScatterDims N R wf).window (ix1 e) 0 : Nat)).toNat = n.val
      rw [hs0, hw0, hA]; simp
  · rename_i h
    constructor
    · intro hf; exact absurd hf (by simp)
    · intro hA
      exfalso; apply h
      intro a
      obtain rfl : a = 0 := Subsingleton.elim _ _
      show 0 ≤ (eltScatterDims N R wf).start (ix1 e) idx 0 + ((eltScatterDims N R wf).window (ix1 e) 0 : Nat)
        ∧ (eltScatterDims N R wf).start (ix1 e) idx 0 + ((eltScatterDims N R wf).window (ix1 e) 0 : Nat) < (N : Int)
      rw [hs0, hw0, hA]; have := n.isLt; omega

/-- THE ELEMENT SCATTER-ADD READ AT `n`, over the extended reals: the operand's element plus the sum of the updates
    whose scatter index, read signed and not clamped, is `n`. -/
theorem eltScatterAdd_apply {φ : FTy} {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Host.scatterAdd (F := Ideal) (φ := φ) (eltScatterDims N R wf) x idx upd (ix1 n)
      = x (ix1 n) + ∑ e ∈ Finset.univ.filter (fun e : Fin R => (idx (ix2 e 0)).toInt = (n.val : Int)), upd (ix1 e) := by
  show x (ix1 n) + ∑ j ∈ Finset.univ.filter
    (fun j => (eltScatterDims N R wf).resultIdx? j idx = some (ix1 n)), upd j = _
  congr 1
  rw [Finset.sum_filter, sum_idx1, Finset.sum_filter]
  refine Finset.sum_congr rfl fun e _ => ?_
  simp only [eltScatter_resultIdx_iff]

/-! ## Sums over a concatenated range, and a filter that holds at one point -/

/-- A filtered sum over `Fin T`, `T = A + B`, is the filtered sum over the first `A` indices plus the one over the
    last `B`. -/
theorem sum_filter_split {M : Type*} [AddCommMonoid M] {A B T : Nat} (h : A + B = T) (P : Fin T → Prop)
    [DecidablePred P] (f : Fin T → M) :
    ∑ i ∈ Finset.univ.filter P, f i
      = ∑ i ∈ Finset.univ.filter (fun i : Fin A => P ⟨i.val, by omega⟩), f ⟨i.val, by omega⟩
      + ∑ i ∈ Finset.univ.filter (fun i : Fin B => P ⟨A + i.val, by omega⟩), f ⟨A + i.val, by omega⟩ := by
  subst h
  rw [Finset.sum_filter, Finset.sum_filter, Finset.sum_filter, Fin.sum_univ_add]
  rfl

/-- A filtered sum whose filter holds at exactly one point is the summand there. -/
theorem sum_filter_single {M : Type*} [AddCommMonoid M] {B : Nat} (n : Fin B) (P : Fin B → Prop) [DecidablePred P]
    (hP : ∀ i, P i ↔ i = n) (f : Fin B → M) :
    ∑ i ∈ Finset.univ.filter P, f i = f n := by
  have hs : Finset.univ.filter P = {n} := by
    ext i; simp [hP]
  rw [hs, Finset.sum_singleton]

/-! ## A nonnegative real factor across extended-real sums -/

/-- A nonnegative real factor distributes over an extended-real sum of two terms, whatever the terms. -/
theorem coe_mul_add {r : ℝ} (hr : 0 ≤ r) (y z : EReal) : (r : EReal) * (y + z) = (r : EReal) * y + (r : EReal) * z :=
  EReal.left_distrib_of_nonneg_of_ne_top (EReal.coe_nonneg.mpr hr) (EReal.coe_ne_top r) y z

/-- A nonnegative real factor distributes over a finite extended-real sum, whatever the summands. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- Scaling "zero plus a sum, plus a tail" by a nonnegative real: the factor goes onto every summand and the tail. -/
theorem scale_law {ι : Type*} (s : Finset ι) (r : ℝ) (hr : 0 ≤ r) (z : EReal) (hz : z = 0) (a : ι → EReal) (t : EReal) :
    (r : EReal) * ((z + ∑ e ∈ s, a e) + t) = z + (∑ e ∈ s, a e * (r : EReal) + t * (r : EReal)) := by
  subst hz
  rw [zero_add, zero_add, coe_mul_add hr, coe_mul_sum s r hr, mul_comm (r : EReal) t]
  congr 1
  exact Finset.sum_congr rfl fun e _ => mul_comm _ _

/-! ## The index normalisation before a gather, on an index that is a row number already -/

/-- A natural below `100000` as a 32-bit word reads back, signed, as itself. -/
theorem toInt_ofNat_small (k : Nat) (hk : k < 100000) : (BitVec.ofNat 32 k).toInt = (k : Int) := by
  rw [BitVec.toInt_eq_toNat_cond, BitVec.toNat_ofNat]
  split <;> omega

/-- The normalisation "a negative index is shifted up by the extent" leaves a word whose signed value is a row
    number `n` alone, and clamping reads it as `n`. -/
theorem clampRow_of_hit (v : BitVec 32) (n : Fin 100000) (h : v.toInt = (n.val : Int)) :
    clampRow 100000 (by decide) (Scalar.select (IntOp.cmpi .slt v 0#32) (IntOp.addi v 100000#32) v) = n := by
  have hlt : v.slt 0#32 = false := by
    unfold BitVec.slt
    rw [h]
    simp
  have hc : IntOp.cmpi .slt v 0#32 = 0#1 := by
    show BitVec.ofBool (v.slt 0#32) = 0#1
    rw [hlt]; rfl
  rw [hc, select_zero]
  refine Fin.ext ?_
  show min v.toInt.toNat (100000 - 1) = n.val
  rw [h]
  have := n.isLt
  omega

/-- The same for the word of a row number. -/
theorem clampRow_ofNat (n : Fin 100000) :
    clampRow 100000 (by decide) (Scalar.select (IntOp.cmpi .slt (BitVec.ofNat 32 n.val) 0#32)
      (IntOp.addi (BitVec.ofNat 32 n.val) 100000#32) (BitVec.ofNat 32 n.val)) = n :=
  clampRow_of_hit _ n (toInt_ofNat_small n.val n.isLt)

/-- The word of a row number `i` reads, signed, as the row number `n` exactly when `i = n`. -/
theorem toInt_ofNat_lt (n i : Fin 100000) : (BitVec.ofNat 32 i.val).toInt = (n.val : Int) ↔ i = n := by
  rw [toInt_ofNat_small i.val i.isLt]
  constructor
  · intro h; exact Fin.ext (by exact_mod_cast h)
  · rintro rfl; rfl

end Cert.LibGS

end
-- ==== Proof.Edges.lean ====
/-
  The graph as the two programs read it off their integer inputs.

  An edge `e` carries a source word and a destination word (32-bit, read signed).  Both programs first let a
  negative source count from the end (`v < 0` becomes `v + 50000`), then gather: the row gather reads row
  `v` clamped into `[0, 50000)`, so every edge reads SOME row (`row`).  The scatter-add adds edge `e`'s message
  into node `n` exactly when the destination word, read signed, IS `n`; a destination outside `[0, 50000)` is
  dropped (`hits`).  These are the `row` and `hits` at which the specification's aggregation is taken.
-/
import proofs.«132948_j5471788335183_2_alg».proof.Proof.LibGatherScatter

noncomputable section

namespace Cert.Edges

open Idealize.ShloMosaic Idealize.ShloMosaic.ValueIdx

/-- A negative index counts from the end of the 50000 rows. -/
def wrap (v : BitVec 32) : BitVec 32 :=
  Scalar.select (IntOp.cmpi .slt v 0#32) (IntOp.addi v 50000#32) v

/-- The row edge `e` reads: its wrapped source word, clamped into the table. -/
def row (src : (⟨1, ![1600000]⟩ : Shape).Idx → BitVec 32) (e : Fin 1600000) : Fin 50000 :=
  Cert.LibGS.clampRow 50000 (by decide) (wrap (src (ix1 e)))

/-- The edges arriving at node `n`: those whose destination word, read signed, is `n`. -/
def hits (dst : (⟨1, ![1600000]⟩ : Shape).Idx → BitVec 32) (n : Fin 50000) : Finset (Fin 1600000) :=
  Finset.univ.filter (fun e : Fin 1600000 => (dst (ix1 e)).toInt = (n.val : Int))

end Cert.Edges

end
-- ==== Proof.Spmm.lean ====
/-
  One sparse aggregation of the host program, read at an entry.

  The stage is: wrap the negative source indices, gather a row of the table per edge, scale it by the edge's
  weight, and scatter-add the scaled rows into a zero table at the destination indices.  At `(n, c)` that is
  `∑ over the edges e arriving at n of w e · x (row e, c)`: the gather reads the clamped wrapped row, the scatter-add
  adds exactly the updates whose destination word is `n` to the zero it starts from.
-/
import proofs.«132948_j5471788335183_2_alg».proof.Proof.Edges
import proofs.«132948_j5471788335183_2_alg».proof.Proof.LibHostRead
import proofs.«132948_j5471788335183_2_alg».proof.Proof.Spec
import Idealize.ShloMosaic.Lib.Pipeline.Value
import Idealize.ShloMosaic.Lib.ValueIdx
import Idealize.ShloMosaic.PureOps.Ideal.Laws

noncomputable section

namespace Cert.Spmm

open Idealize.ShloMosaic Idealize.ShloMosaic.ValueIdx

/-- A column `[E, 1]` repeated across `C` columns, at `(e, c)`: the column's entry `e`. -/
theorem bcastWide_apply {α : Type} {C : Nat}
    (h : (⟨2, ![1600000, 1]⟩ : Shape).BroadcastsInDim ⟨2, ![1600000, C]⟩ ![0, 1])
    (x : (⟨2, ![1600000, 1]⟩ : Shape).Idx → α) (e : Fin 1600000) (c : Fin C) :
    broadcastInDim ⟨2, ![1600000, C]⟩ ![0, 1] h x (ix2 e c) = x (ix2 e (0 : Fin 1)) :=
  broadcastInDim_apply _ h x (ix2 e c) (ix2 e 0) (fun a => match a with
    | ⟨0, _⟩ => by show e.val = if (1600000 : Nat) = 1 then 0 else e.val; rw [if_neg (by decide)]
    | ⟨1, _⟩ => by show (0 : Nat) = if (1 : Nat) = 1 then 0 else c.val; rw [if_pos rfl])

/-- The wrapped source indices as a column, at edge `e`: the wrapped word. -/
theorem wrapCol_apply
    (hcol : (⟨1, ![1600000]⟩ : Shape).BroadcastsInDim ⟨2, ![1600000, 1]⟩ ![0])
    (hs : (⟨0, ![]⟩ : Shape).BroadcastsInDim ⟨1, ![1600000]⟩ ![])
    (src : (⟨1, ![1600000]⟩ : Shape).Idx → BitVec 32) (e : Fin 1600000) :
    broadcastInDim ⟨2, ![1600000, 1]⟩ ![0] hcol
        (select (cmpi .slt src (broadcastInDim ⟨1, ![1600000]⟩ ![] hs (constantI ⟨0, ![]⟩ 32 0#32)))
          (addi src (broadcastInDim ⟨1, ![1600000]⟩ ![] hs (constantI ⟨0, ![]⟩ 32 50000#32))) src) (ix2 e (0 : Fin 1))
      = Cert.Edges.wrap (src (ix1 e)) := by
  rw [Cert.LibHR.bcastCol_apply]
  show Scalar.select (IntOp.cmpi .slt (src (ix1 e)) (broadcastInDim ⟨1, ![1600000]⟩ ![] hs (constantI ⟨0, ![]⟩ 32 0#32) (ix1 e)))
      (IntOp.addi (src (ix1 e)) (broadcastInDim ⟨1, ![1600000]⟩ ![] hs (constantI ⟨0, ![]⟩ 32 50000#32) (ix1 e))) (src (ix1 e)) = _
  rw [Cert.LibHR.bcastScalar_apply, Cert.LibHR.bcastScalar_apply]
  rfl

/-- THE AGGREGATION STAGE AT `(n, c)`, for a table of `C` columns whose gathered rows are `g`: given that the
    gather reads the clamped wrapped row (`hg`), the scatter-add of `w · g` into zero is the specification's sum. -/
theorem stage_apply {C : Nat} {φ : FTy}
    (swf : ScatterDims.WF ⟨2, ![50000, C]⟩ ⟨2, ![1600000, 1]⟩ ⟨2, ![1600000, C]⟩ [1] [0] [0] 1)
    (hcol : (⟨1, ![1600000]⟩ : Shape).BroadcastsInDim ⟨2, ![1600000, 1]⟩ ![0])
    (hw2 : (⟨2, ![1600000, 1]⟩ : Shape).BroadcastsInDim ⟨2, ![1600000, C]⟩ ![0, 1])
    (hz : (⟨0, ![]⟩ : Shape).BroadcastsInDim ⟨2, ![50000, C]⟩ ![])
    (x : Fin 50000 → Fin C → EReal) (src dst : (⟨1, ![1600000]⟩ : Shape).Idx → BitVec 32)
    (w : (⟨1, ![1600000]⟩ : Shape).Idx → EReal)
    (g : (⟨2, ![1600000, C]⟩ : Shape).Idx → EReal)
    (hg : ∀ (e : Fin 1600000) (c : Fin C), g (ix2 e c) = x (Cert.Edges.row src e) c)
    (n : Fin 50000) (c : Fin C) :
    Host.scatterAdd (F := Ideal) (φ := φ) (Cert.LibGS.rowScatterDims 50000 1600000 C swf)
        (broadcastInDim ⟨2, ![50000, C]⟩ ![] hz (constant (F := Ideal) ⟨0, ![]⟩ .f32 0x00000000#32))
        (broadcastInDim ⟨2, ![1600000, 1]⟩ ![0] hcol dst)
        (mulf (F := Ideal) (φ := .f32) (broadcastInDim ⟨2, ![1600000, C]⟩ ![0, 1] hw2 (broadcastInDim ⟨2, ![1600000, 1]⟩ ![0] hcol w)) g)
        (ix2 n c)
      = Cert.Spec.agg (Cert.Edges.row src) (Cert.Edges.hits dst) (fun e => w (ix1 e)) x n c := by
  rw [Cert.LibGS.rowScatterAdd_apply, Cert.LibHR.bcastScalar_apply, constant_apply, Ideal.ofBits_zero_f32, zero_add]
  unfold Cert.Spec.agg Cert.Edges.hits
  refine Finset.sum_congr (Finset.filter_congr fun e _ => by rw [Cert.LibHR.bcastCol_apply]) (fun e _ => ?_)
  rw [mulf_apply, bcastWide_apply, Cert.LibHR.bcastCol_apply, hg]

end Cert.Spmm

end
-- ==== Proof.KHost0.lean ====
/-
  The host operations before the first region, read at an index.

  Before the first region the program computes, on the host, the first aggregation of the feature table along
  the weighted edges, and lays the two bias rows of the first region out as one-row tables. Read entry by entry:
  the aggregated table at (n, d) is the specification's sum over the edges arriving at n of the edge weight times
  the feature row the edge reads (the rows are rounded to the narrow format and widened back, both the identity on
  extended reals); a bias laid out as a one-row table reads the bias at its column; and no host operation writes an
  argument, so each argument's buffer at the region's entry is the launch memory's.
-/
import proofs.«132948_j5471788335183_2_alg».proof.Proof.Gen.KernelIdeal.Frame
import proofs.«132948_j5471788335183_2_alg».proof.Proof.Spmm

set_option maxRecDepth 16384

noncomputable section

namespace Cert.KHost

open Idealize.ShloMosaic Idealize.ShloMosaic.ValueIdx Idealize.ShloMosaic.TcCoe
open Cert.KernelIdeal Cert.KernelIdeal.Gen

variable (m : (ℓ : Loc nD τ sig) → Buf (Elt Ideal) ℓ) (ρ : Dev nD → PrngReg)

/-! ### The arguments the first region reads are as launched -/

theorem hA0 (c : Dev nD) : V1 m ρ c main_arg0 = m ((c : Thread nD τ).loc main_arg0) := by
  show StableHlo.after hostOps0 (W0 m ρ c) (Proc.devRef .tc main_arg0) = _
  open StableHlo in after_results

theorem hA4 (c : Dev nD) : V1 m ρ c main_arg4 = m ((c : Thread nD τ).loc main_arg4) := by
  show StableHlo.after hostOps0 (W0 m ρ c) (Proc.devRef .tc main_arg4) = _
  open StableHlo in after_results

theorem hA5 (c : Dev nD) : V1 m ρ c main_arg5 = m ((c : Thread nD τ).loc main_arg5) := by
  show StableHlo.after hostOps0 (W0 m ρ c) (Proc.devRef .tc main_arg5) = _
  open StableHlo in after_results

theorem hA6 (c : Dev nD) : V1 m ρ c main_arg6 = m ((c : Thread nD τ).loc main_arg6) := by
  show StableHlo.after hostOps0 (W0 m ρ c) (Proc.devRef .tc main_arg6) = _
  open StableHlo in after_results

theorem hA8 (c : Dev nD) : V1 m ρ c main_arg8 = m ((c : Thread nD τ).loc main_arg8) := by
  show StableHlo.after hostOps0 (W0 m ρ c) (Proc.devRef .tc main_arg8) = _
  open StableHlo in after_results

/-! ### The two bias rows laid out as one-row tables -/

/-- Adding a leading unit axis to a row: the one-row table at (0, k) is the row at k. -/
theorem addUnit_row_apply {α : Type} {K : Nat} (v : (⟨1, ![K]⟩ : Shape).Idx → α)
    (h : (⟨1, ![K]⟩ : Shape).ShapeCasts ⟨2, ![1, K]⟩) (k : Fin K) :
    shapeCast ⟨2, ![1, K]⟩ v h (ix2 (0 : Fin 1) k) = v (ix1 k) := by
  rw [shapeCast_addUnit_apply ![K]]
  congr 1
  funext a
  match a with
  | ⟨0, _⟩ => rfl

theorem h15 (c : Dev nD) (k : Fin 128) :
    (V1 m ρ c main_v15 : S1x128.Idx → EReal) (ix2 (0 : Fin 1) k)
      = (m ((c : Thread nD τ).loc main_arg7) : S128.Idx → EReal) (ix1 k) := by
  show (StableHlo.after hostOps0 (W0 m ρ c) (Proc.devRef .tc main_v15) : S1x128.Idx → EReal) (ix2 (0 : Fin 1) k) = _
  open StableHlo in after_results
  exact addUnit_row_apply (m ((c : Thread nD τ).loc main_arg7) : S128.Idx → EReal) Gen.shapeCasts_S128_S1x128 k

theorem h16 (c : Dev nD) (k : Fin 64) :
    (V1 m ρ c main_v16 : S1x64.Idx → EReal) (ix2 (0 : Fin 1) k)
      = (m ((c : Thread nD τ).loc main_arg9) : S64.Idx → EReal) (ix1 k) := by
  show (StableHlo.after hostOps0 (W0 m ρ c) (Proc.devRef .tc main_v16) : S1x64.Idx → EReal) (ix2 (0 : Fin 1) k) = _
  open StableHlo in after_results
  exact addUnit_row_apply (m ((c : Thread nD τ).loc main_arg9) : S64.Idx → EReal) Gen.shapeCasts_S64_S1x64 k

/-! ### The first aggregation -/

/-- The aggregated feature table the first region reads, at (n, d): the specification's aggregation of the
    launched features along the launched edges. -/
theorem h14 (c : Dev nD) (n : Fin 50000) (d : Fin 128) :
    (V1 m ρ c main_v14 : S50000x128.Idx → EReal) (ix2 n d)
      = Cert.Spec.agg (Cert.Edges.row (m ((c : Thread nD τ).loc main_arg1))) (Cert.Edges.hits (m ((c : Thread nD τ).loc main_arg2)))
          (fun e => (m ((c : Thread nD τ).loc main_arg3) : S1600000.Idx → EReal) (ix1 e))
          (fun n d => (m ((c : Thread nD τ).loc main_arg0) : S50000x128.Idx → EReal) (ix2 n d)) n d := by
  show (StableHlo.after hostOps0 (W0 m ρ c) (Proc.devRef .tc main_v14) : S50000x128.Idx → EReal) (ix2 n d) = _
  open StableHlo in after_results_simp
  refine Cert.Spmm.stage_apply (φ := .f32) _ _ _ _
    (fun n d => (m ((c : Thread nD τ).loc main_arg0) : S50000x128.Idx → EReal) (ix2 n d))
    (m ((c : Thread nD τ).loc main_arg1)) (m ((c : Thread nD τ).loc main_arg2)) (m ((c : Thread nD τ).loc main_arg3)) _ ?_ n d
  intro e c'
  rw [extf_apply]
  show Host.gather (Cert.LibGS.rowGatherDims 50000 1600000 128
      Gen.gather_S50000x128_S1600000x1_S1600000x128_1_0_n_n_0_1_1128_wf) _ _ (ix2 e c') = _
  rw [Cert.LibGS.rowGather_apply (by decide), truncf_apply, Cert.Spmm.wrapCol_apply]
  rfl

end Cert.KHost

end
-- ==== Proof.KHost1.lean ====
/-
  The host operations between the two regions, read at an index.

  Between the regions the program computes, on the host, the second aggregation: of the 64-column table the first
  region left as its third result, along the same weighted edges.  Read entry by entry it is the specification's sum
  over the edges arriving at a node of the edge weight times the table's row the edge reads (the rows are rounded to
  the narrow format and widened back, both the identity on extended reals).  The stretch writes nothing else the
  second region reads: the first region's other results, the arguments and the bias rows laid out before the first
  region are as they were.
-/
import proofs.«132948_j5471788335183_2_alg».proof.Proof.Gen.KernelIdeal.Frame
import proofs.«132948_j5471788335183_2_alg».proof.Proof.Spmm

set_option maxRecDepth 16384

noncomputable section

namespace Cert.KHost

open Idealize.ShloMosaic Idealize.ShloMosaic.ValueIdx Idealize.ShloMosaic.TcCoe
open Cert.KernelIdeal Cert.KernelIdeal.Gen

variable (m : (ℓ : Loc nD τ sig) → Buf (Elt Ideal) ℓ) (ρ : Dev nD → PrngReg)

/-! ### Buffers the first region does not write, at its exit: as launched, or as the first host stretch left them -/

theorem W2_main_arg1 (c : Dev nD) : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  open StableHlo in after_results

theorem W2_main_arg2 (c : Dev nD) : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  open StableHlo in after_results

theorem W2_main_arg3 (c : Dev nD) : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  open StableHlo in after_results

theorem W2_main_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  open StableHlo in after_results

theorem W2_main_arg12 (c : Dev nD) : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  open StableHlo in after_results

/-! ### What the second host stretch leaves alone -/

theorem h19_0 (c : Dev nD) : V3 m ρ c main_v19_0 = W2 m ρ c (Proc.devRef .tc main_v19_0) := by
  show StableHlo.after hostOps1 (W2 m ρ c) (Proc.devRef .tc main_v19_0) = _
  open StableHlo in after_results

theorem h19_1 (c : Dev nD) : V3 m ρ c main_v19_1 = W2 m ρ c (Proc.devRef .tc main_v19_1) := by
  show StableHlo.after hostOps1 (W2 m ρ c) (Proc.devRef .tc main_v19_1) = _
  open StableHlo in after_results

theorem hA10 (c : Dev nD) : V3 m ρ c main_arg10 = (m ((c : Thread nD τ).loc main_arg10)) := by
  show StableHlo.after hostOps1 (W2 m ρ c) (Proc.devRef .tc main_arg10) = _
  open StableHlo in after_results
  exact W2_main_arg10 m ρ c

theorem hA12 (c : Dev nD) : V3 m ρ c main_arg12 = (m ((c : Thread nD τ).loc main_arg12)) := by
  show StableHlo.after hostOps1 (W2 m ρ c) (Proc.devRef .tc main_arg12) = _
  open StableHlo in after_results
  exact W2_main_arg12 m ρ c

/-! ### The head's two bias rows, laid out as one-row tables before the first region -/

/-- Adding a leading unit axis to a row: the one-row table at (0, k) is the row at k. -/
theorem oneRow_apply {α : Type} {K : Nat} (v : (⟨1, ![K]⟩ : Shape).Idx → α)
    (h : (⟨1, ![K]⟩ : Shape).ShapeCasts ⟨2, ![1, K]⟩) (k : Fin K) :
    shapeCast ⟨2, ![1, K]⟩ v h (ix2 (0 : Fin 1) k) = v (ix1 k) := by
  rw [shapeCast_addUnit_apply ![K]]
  congr 1
  funext a
  match a with
  | ⟨0, _⟩ => rfl

theorem V3_main_v17 (c : Dev nD) : V3 m ρ c main_v17 = W1 m ρ c (Proc.devRef .tc main_v17) := by
  show StableHlo.after hostOps1 (W2 m ρ c) (Proc.devRef .tc main_v17) = _
  open StableHlo in after_results
  exact W2_of_ne m ρ c main_v17 (by decide)

theorem V3_main_v18 (c : Dev nD) : V3 m ρ c main_v18 = W1 m ρ c (Proc.devRef .tc main_v18) := by
  show StableHlo.after hostOps1 (W2 m ρ c) (Proc.devRef .tc main_v18) = _
  open StableHlo in after_results
  exact W2_of_ne m ρ c main_v18 (by decide)

theorem h17 (c : Dev nD) (k : Fin 128) :
    (V3 m ρ c main_v17 : S1x128.Idx → EReal) (ix2 (0 : Fin 1) k)
      = ((m ((c : Thread nD τ).loc main_arg11)) : S128.Idx → EReal) (ix1 k) := by
  rw [V3_main_v17]
  show (StableHlo.after hostOps0 (W0 m ρ c) (Proc.devRef .tc main_v17) : S1x128.Idx → EReal) (ix2 (0 : Fin 1) k) = _
  open StableHlo in after_results
  exact oneRow_apply ((m ((c : Thread nD τ).loc main_arg11)) : S128.Idx → EReal) Gen.shapeCasts_S128_S1x128 k

theorem h18 (c : Dev nD) (j : Fin 64) :
    (V3 m ρ c main_v18 : S1x64.Idx → EReal) (ix2 (0 : Fin 1) j)
      = ((m ((c : Thread nD τ).loc main_arg13)) : S64.Idx → EReal) (ix1 j) := by
  rw [V3_main_v18]
  show (StableHlo.after hostOps0 (W0 m ρ c) (Proc.devRef .tc main_v18) : S1x64.Idx → EReal) (ix2 (0 : Fin 1) j) = _
  open StableHlo in after_results
  exact oneRow_apply ((m ((c : Thread nD τ).loc main_arg13)) : S64.Idx → EReal) Gen.shapeCasts_S64_S1x64 j

/-! ### The second aggregation -/

/-- The aggregated table the second region reads, at (n, j): the specification's aggregation, along the launched
    edges, of the 64-column table the first region left as its third result. -/
theorem h34 (c : Dev nD) (n : Fin 50000) (j : Fin 64) :
    (V3 m ρ c main_v34 : S50000x64.Idx → EReal) (ix2 n j)
      = Cert.Spec.agg (Cert.Edges.row (m ((c : Thread nD τ).loc main_arg1))) (Cert.Edges.hits (m ((c : Thread nD τ).loc main_arg2)))
          (fun e => ((m ((c : Thread nD τ).loc main_arg3)) : S1600000.Idx → EReal) (ix1 e))
          (fun n j => (W2 m ρ c (Proc.devRef .tc main_v19_2) : S50000x64.Idx → EReal) (ix2 n j)) n j := by
  show (StableHlo.after hostOps1 (W2 m ρ c) (Proc.devRef .tc main_v34) : S50000x64.Idx → EReal) (ix2 n j) = _
  open StableHlo in after_results_simp
  rw [W2_main_arg1, W2_main_arg2, W2_main_arg3]
  refine Cert.Spmm.stage_apply (φ := .f32) _ _ _ _
    (fun n j => (W2 m ρ c (Proc.devRef .tc main_v19_2) : S50000x64.Idx → EReal) (ix2 n j))
    (m ((c : Thread nD τ).loc main_arg1)) (m ((c : Thread nD τ).loc main_arg2)) (m ((c : Thread nD τ).loc main_arg3)) _ ?_ n j
  intro e c'
  rw [extf_apply]
  show Host.gather (Cert.LibGS.rowGatherDims 50000 1600000 64
      Gen.gather_S50000x64_S1600000x1_S1600000x64_1_0_n_n_0_1_164_wf) _ _ (ix2 e c') = _
  rw [Cert.LibGS.rowGather_apply (by decide), truncf_apply, Cert.Spmm.wrapCol_apply]
  rfl

end Cert.KHost

end
-- ==== Proof.LibFiniteAssoc.lean ====
/-
  Finite reals inside the extended reals: sums, and the associativity of a triple product.

  A finite sum of reals computed in the extended reals is the real sum (`coe_sum_real`). Hence a triple product
  of arrays whose entries are all reals can be re-associated inside the extended reals (`assoc_fin`):
  the sum over l of (the sum over k of a k * w k l) * v l is the sum over k of a k * (the sum over l of
  w k l * v l). Without finiteness this fails: distributivity does not hold at the infinities. This is the law
  that lets a weight be folded into the next one before a matrix product.
-/
import Mathlib.Data.EReal.Operations
import Mathlib.Algebra.BigOperators.Ring.Finset
import Mathlib.Algebra.BigOperators.Group.Finset.Sigma

noncomputable section

namespace Cert.LibFiniteAssoc

open Finset

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Associativity of a triple product of finite reals inside the extended reals:
`∑ l, (∑ k, a k * w k l) * v l = ∑ k, a k * ∑ l, w k l * v l` when every entry is a real. -/
theorem assoc_fin {K L : Nat} (a : Fin K → EReal) (w : Fin K → Fin L → EReal) (v : Fin L → EReal)
    (ha : ∀ k, ∃ r : ℝ, a k = (r : EReal)) (hw : ∀ k l, ∃ r : ℝ, w k l = (r : EReal))
    (hv : ∀ l, ∃ r : ℝ, v l = (r : EReal)) :
    ∑ l : Fin L, (∑ k : Fin K, a k * w k l) * v l = ∑ k : Fin K, a k * ∑ l : Fin L, w k l * v l := by
  choose a' ha' using ha
  choose w' hw' using hw
  choose v' hv' using hv
  obtain rfl : a = fun k => (a' k : EReal) := funext ha'
  obtain rfl : w = fun k l => (w' k l : EReal) := funext fun k => funext fun l => hw' k l
  obtain rfl : v = fun l => (v' l : EReal) := funext hv'
  simp only [← EReal.coe_mul, coe_sum_real]
  congr 1
  simp only [Finset.sum_mul, Finset.mul_sum, mul_assoc]
  exact Finset.sum_comm

end Cert.LibFiniteAssoc

end
-- ==== Proof.Laws.lean ====
/-
  The algebra that relates the two orders of evaluation of the network, over the extended reals.

  * Aggregation is linear, so aggregating a table and then multiplying by a matrix equals multiplying every row
    first and aggregating the products (conv2K_eq_conv2R). Distributivity fails at the infinities of the
    extended reals, so this law is stated for tables, weights and matrices whose entries are all reals; the
    proof moves every entry into the reals, where it is a reordering of a finite double sum.
  * A finite sum of products of reals is a real, and so is its maximum with zero; hence the first convolution of
    real data is real (conv1_real), which is what the law above asks of its table.
  * The product of three rows laid side by side with a matrix is the sum of the three products with the matching
    row blocks of the matrix (headR_eq_headK). This only regroups the terms of one finite sum, so it holds in
    every commutative additive monoid and needs no finiteness.
  * Together: the two forms of the whole network agree entry by entry (outK_eq_outR).
-/
import proofs.«132948_j5471788335183_2_alg».proof.Proof.Spec
import proofs.«132948_j5471788335183_2_alg».proof.Proof.LibFiniteAssoc

noncomputable section

namespace Cert.Laws

open Finset Cert.Spec

variable {N E : ℕ}

/-! ### Reals inside the extended reals are closed under the operations used -/

theorem real_zero : ∃ r : ℝ, (0 : EReal) = (r : EReal) := ⟨0, EReal.coe_zero.symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert i s hi ih =>
    rw [Finset.sum_insert hi]
    exact real_add (hf i (Finset.mem_insert_self i s)) (ih fun j hj => hf j (Finset.mem_insert_of_mem hj))

theorem real_max_zero {x : EReal} (hx : ∃ r : ℝ, x = (r : EReal)) : ∃ r : ℝ, max x 0 = (r : EReal) := by
  rcases le_total x 0 with h | h
  · rw [max_eq_right h]; exact real_zero
  · rw [max_eq_left h]; exact hx

theorem real_relu {x : EReal} (hx : ∃ r : ℝ, x = (r : EReal)) : ∃ r : ℝ, relu x = (r : EReal) :=
  real_max_zero hx

theorem real_dense {K B : ℕ} (x : Fin K → EReal) (W : Fin K → Fin B → EReal)
    (hx : ∀ k, ∃ r : ℝ, x k = (r : EReal)) (hW : ∀ k j, ∃ r : ℝ, W k j = (r : EReal)) (j : Fin B) :
    ∃ r : ℝ, dense x W j = (r : EReal) :=
  real_sum _ _ fun k _ => real_mul (hx k) (hW k j)

theorem real_agg (row : Fin E → Fin N) (hits : Fin N → Finset (Fin E)) (w : Fin E → EReal) {C : ℕ}
    (Y : Fin N → Fin C → EReal) (hw : ∀ e, ∃ r : ℝ, w e = (r : EReal))
    (hY : ∀ n c, ∃ r : ℝ, Y n c = (r : EReal)) (n : Fin N) (c : Fin C) :
    ∃ r : ℝ, agg row hits w Y n c = (r : EReal) :=
  real_sum _ _ fun e _ => real_mul (hw e) (hY (row e) c)

/-- The first convolution of real data is real, entry by entry. -/
theorem conv1_real (row : Fin E → Fin N) (hits : Fin N → Finset (Fin E)) (w : Fin E → EReal)
    (X : Fin N → Fin 128 → EReal) (W1 : Fin 128 → Fin 128 → EReal)
    (hw : ∀ e, ∃ r : ℝ, w e = (r : EReal)) (hX : ∀ n d, ∃ r : ℝ, X n d = (r : EReal))
    (hW1 : ∀ k j, ∃ r : ℝ, W1 k j = (r : EReal)) :
    ∀ n k, ∃ r : ℝ, conv1 row hits w X W1 n k = (r : EReal) := fun n k =>
  real_relu (real_dense _ W1 (fun d => real_agg row hits w X hw hX n d) hW1 k)

/-! ### Linearity of the aggregation -/

/-- Multiplying every row by the matrix and then aggregating equals aggregating and then multiplying, for real
    data: both are the double sum over the arriving edges e and the columns k of w e · C1 (row e) k · W2 k j. -/
theorem conv2K_eq_conv2R (row : Fin E → Fin N) (hits : Fin N → Finset (Fin E)) (w : Fin E → EReal)
    (C1 : Fin N → Fin 128 → EReal) (W2 : Fin 128 → Fin 64 → EReal)
    (hw : ∀ e, ∃ r : ℝ, w e = (r : EReal)) (hC : ∀ n k, ∃ r : ℝ, C1 n k = (r : EReal))
    (hW : ∀ k j, ∃ r : ℝ, W2 k j = (r : EReal)) (n : Fin N) (j : Fin 64) :
    conv2K row hits w C1 W2 n j = conv2R row hits w C1 W2 n j := by
  choose w' hw' using hw
  choose C' hC' using hC
  choose W' hW' using hW
  obtain rfl : w = fun e => (w' e : EReal) := funext hw'
  obtain rfl : C1 = fun n k => (C' n k : EReal) := funext fun n => funext fun k => hC' n k
  obtain rfl : W2 = fun k j => (W' k j : EReal) := funext fun k => funext fun j => hW' k j
  simp only [conv2K, conv2R, agg, dense, ← EReal.coe_mul, Cert.LibFiniteAssoc.coe_sum_real]
  congr 1
  simp only [Finset.mul_sum, Finset.sum_mul, mul_assoc]
  exact Finset.sum_comm

/-! ### A sum over 256 columns in three blocks -/

/-- A sum over a + b + c terms is the sum of the sums over the first a, the next b and the last c of them. -/
theorem sum_three {M : Type*} [AddCommMonoid M] (a b c : ℕ) (f : Fin (a + b + c) → M) :
    ∑ i, f i = ((∑ i : Fin a, f ⟨i.val, by omega⟩) + ∑ i : Fin b, f ⟨a + i.val, by omega⟩)
      + ∑ i : Fin c, f ⟨a + b + i.val, by omega⟩ := by
  rw [Fin.sum_univ_add, Fin.sum_univ_add]
  rfl

/-- The 256 columns are the 64, the 128 and the 64 columns of the three rows laid side by side. -/
theorem sum_256 {M : Type*} [AddCommMonoid M] (f : Fin 256 → M) :
    ∑ i, f i = ((∑ i : Fin 64, f ⟨i.val, by omega⟩) + ∑ i : Fin 128, f ⟨64 + i.val, by omega⟩)
      + ∑ i : Fin 64, f ⟨192 + i.val, by omega⟩ :=
  sum_three 64 128 64 f

theorem cat_left (s : Fin 64 → EReal) (c : Fin 128 → EReal) (a : Fin 64 → EReal) (i : Fin 64) :
    cat s c a ⟨i.val, by omega⟩ = s i := by
  have h : i.val < 64 := i.isLt
  simp only [cat, dif_pos h]

theorem cat_mid (s : Fin 64 → EReal) (c : Fin 128 → EReal) (a : Fin 64 → EReal) (i : Fin 128) :
    cat s c a ⟨64 + i.val, by omega⟩ = c i := by
  have h1 : ¬ (64 + i.val < 64) := by omega
  have h2 : 64 + i.val < 192 := by omega
  simp only [cat, dif_neg h1, dif_pos h2]
  congr 1
  exact Fin.ext (by simp)

theorem cat_right (s : Fin 64 → EReal) (c : Fin 128 → EReal) (a : Fin 64 → EReal) (i : Fin 64) :
    cat s c a ⟨192 + i.val, by omega⟩ = a i := by
  have h1 : ¬ (192 + i.val < 64) := by omega
  have h2 : ¬ (192 + i.val < 192) := by omega
  simp only [cat, dif_neg h1, dif_neg h2]
  congr 1
  exact Fin.ext (by simp)

/-- The joined row times the matrix is the sum of the three rows times the matching row blocks of the matrix. -/
theorem dense_cat (s : Fin 64 → EReal) (c : Fin 128 → EReal) (a : Fin 64 → EReal)
    (Wh1 : Fin 256 → Fin 128 → EReal) (k : Fin 128) :
    dense (cat s c a) Wh1 k
      = (dense s (fun (i : Fin 64) k' => Wh1 ⟨i.val, by omega⟩ k') k
        + dense c (fun (i : Fin 128) k' => Wh1 ⟨64 + i.val, by omega⟩ k') k)
        + dense a (fun (i : Fin 64) k' => Wh1 ⟨192 + i.val, by omega⟩ k') k := by
  unfold dense
  rw [sum_256]
  simp only [cat_left, cat_mid, cat_right]

/-- The head computed on the joined row equals the head computed block by block. -/
theorem headR_eq_headK (s : Fin 64 → EReal) (c : Fin 128 → EReal) (a : Fin 64 → EReal)
    (Wh1 : Fin 256 → Fin 128 → EReal) (bh1 : Fin 128 → EReal) (Wh2 : Fin 128 → Fin 64 → EReal)
    (bh2 : Fin 64 → EReal) (j : Fin 64) :
    headR s c a Wh1 bh1 Wh2 bh2 j = headK s c a Wh1 bh1 Wh2 bh2 j := by
  unfold headR headK
  simp only [dense_cat]

/-! ### The whole network in its two forms -/

/-- The network with the second convolution aggregated first and the head taken on the joined row. -/
def outR (row : Fin E → Fin N) (hits : Fin N → Finset (Fin E)) (w : Fin E → EReal)
    (X : Fin N → Fin 128 → EReal) (W1 : Fin 128 → Fin 128 → EReal) (W2 : Fin 128 → Fin 64 → EReal)
    (Wm1 : Fin 128 → Fin 128 → EReal) (bm1 : Fin 128 → EReal) (Wm2 : Fin 128 → Fin 64 → EReal)
    (bm2 : Fin 64 → EReal) (Wh1 : Fin 256 → Fin 128 → EReal) (bh1 : Fin 128 → EReal)
    (Wh2 : Fin 128 → Fin 64 → EReal) (bh2 : Fin 64 → EReal) (n : Fin N) (j : Fin 64) : EReal :=
  headR (selfc X Wm1 bm1 Wm2 bm2 n) (conv1 row hits w X W1 n)
    (conv2R row hits w (conv1 row hits w X W1) W2 n) Wh1 bh1 Wh2 bh2 j

/-- The network with the second convolution multiplied first and the head taken block by block. -/
def outK (row : Fin E → Fin N) (hits : Fin N → Finset (Fin E)) (w : Fin E → EReal)
    (X : Fin N → Fin 128 → EReal) (W1 : Fin 128 → Fin 128 → EReal) (W2 : Fin 128 → Fin 64 → EReal)
    (Wm1 : Fin 128 → Fin 128 → EReal) (bm1 : Fin 128 → EReal) (Wm2 : Fin 128 → Fin 64 → EReal)
    (bm2 : Fin 64 → EReal) (Wh1 : Fin 256 → Fin 128 → EReal) (bh1 : Fin 128 → EReal)
    (Wh2 : Fin 128 → Fin 64 → EReal) (bh2 : Fin 64 → EReal) (n : Fin N) (j : Fin 64) : EReal :=
  headK (selfc X Wm1 bm1 Wm2 bm2 n) (conv1 row hits w X W1 n)
    (conv2K row hits w (conv1 row hits w X W1) W2 n) Wh1 bh1 Wh2 bh2 j

/-- The two forms of the network agree on real edge weights, features and convolution matrices. -/
theorem outK_eq_outR (row : Fin E → Fin N) (hits : Fin N → Finset (Fin E)) (w : Fin E → EReal)
    (X : Fin N → Fin 128 → EReal) (W1 : Fin 128 → Fin 128 → EReal) (W2 : Fin 128 → Fin 64 → EReal)
    (Wm1 : Fin 128 → Fin 128 → EReal) (bm1 : Fin 128 → EReal) (Wm2 : Fin 128 → Fin 64 → EReal)
    (bm2 : Fin 64 → EReal) (Wh1 : Fin 256 → Fin 128 → EReal) (bh1 : Fin 128 → EReal)
    (Wh2 : Fin 128 → Fin 64 → EReal) (bh2 : Fin 64 → EReal)
    (hw : ∀ e, ∃ r : ℝ, w e = (r : EReal)) (hX : ∀ n d, ∃ r : ℝ, X n d = (r : EReal))
    (hW1 : ∀ k j, ∃ r : ℝ, W1 k j = (r : EReal)) (hW2 : ∀ k j, ∃ r : ℝ, W2 k j = (r : EReal))
    (n : Fin N) (j : Fin 64) :
    outK row hits w X W1 W2 Wm1 bm1 Wm2 bm2 Wh1 bh1 Wh2 bh2 n j
      = outR row hits w X W1 W2 Wm1 bm1 Wm2 bm2 Wh1 bh1 Wh2 bh2 n j := by
  have h2 : conv2K row hits w (conv1 row hits w X W1) W2 n = conv2R row hits w (conv1 row hits w X W1) W2 n :=
    funext fun j' => conv2K_eq_conv2R row hits w _ W2 hw (conv1_real row hits w X W1 hw hX hW1) hW2 n j'
  unfold outK outR
  rw [headR_eq_headK, h2]

end Cert.Laws

end
-- ==== Proof.Tables.lean ====
/-
  The result as a function of the fourteen argument arrays, in both arrangements, and their equality.

  The arrays are read as tables over plain indices — `X n d` for the node table, `w e` for the edge weights, the
  weights `W k j`, the biases `b k` — and the two integer arrays as the graph (`Cert.Edges.row`, `Cert.Edges.hits`).
  `outK` aggregates the 64-wide product `conv1 · W2` and takes the head's first product in three parts;
  `outR` multiplies the aggregated 128-wide table by `W2` and takes the head's first product whole.  They agree
  whenever the node table, the edge weights, `W1` and `W2` hold real numbers: the aggregation is then a finite sum of
  reals and commutes with the product by `W2`.
-/
import proofs.«132948_j5471788335183_2_alg».proof.Proof.Laws
import proofs.«132948_j5471788335183_2_alg».proof.Proof.Edges

noncomputable section

namespace Cert.Tables

open Idealize.ShloMosaic Idealize.ShloMosaic.ValueIdx

abbrev T2 (a b : Nat) := (⟨2, ![a, b]⟩ : Shape).Idx → EReal
abbrev T1 (a : Nat) := (⟨1, ![a]⟩ : Shape).Idx → EReal
abbrev I1 (a : Nat) := (⟨1, ![a]⟩ : Shape).Idx → BitVec 32

/-- The kernel's arrangement of the result at `(n, j)`. -/
def outK (x0 : T2 50000 128) (x1 x2 : I1 1600000) (x3 : T1 1600000) (x4 : T2 128 128) (x5 : T2 128 64) (x6 : T2 128 128)
    (x7 : T1 128) (x8 : T2 128 64) (x9 : T1 64) (x10 : T2 256 128) (x11 : T1 128) (x12 : T2 128 64) (x13 : T1 64)
    (n : Fin 50000) (j : Fin 64) : EReal :=
  Cert.Laws.outK (Cert.Edges.row x1) (Cert.Edges.hits x2) (fun e => x3 (ix1 e)) (fun n d => x0 (ix2 n d))
    (fun d k => x4 (ix2 d k)) (fun k j => x5 (ix2 k j)) (fun d k => x6 (ix2 d k)) (fun k => x7 (ix1 k))
    (fun k j => x8 (ix2 k j)) (fun j => x9 (ix1 j)) (fun i k => x10 (ix2 i k)) (fun k => x11 (ix1 k))
    (fun k j => x12 (ix2 k j)) (fun j => x13 (ix1 j)) n j

/-- The reference's arrangement of the result at `(n, j)`. -/
def outR (x0 : T2 50000 128) (x1 x2 : I1 1600000) (x3 : T1 1600000) (x4 : T2 128 128) (x5 : T2 128 64) (x6 : T2 128 128)
    (x7 : T1 128) (x8 : T2 128 64) (x9 : T1 64) (x10 : T2 256 128) (x11 : T1 128) (x12 : T2 128 64) (x13 : T1 64)
    (n : Fin 50000) (j : Fin 64) : EReal :=
  Cert.Laws.outR (Cert.Edges.row x1) (Cert.Edges.hits x2) (fun e => x3 (ix1 e)) (fun n d => x0 (ix2 n d))
    (fun d k => x4 (ix2 d k)) (fun k j => x5 (ix2 k j)) (fun d k => x6 (ix2 d k)) (fun k => x7 (ix1 k))
    (fun k j => x8 (ix2 k j)) (fun j => x9 (ix1 j)) (fun i k => x10 (ix2 i k)) (fun k => x11 (ix1 k))
    (fun k j => x12 (ix2 k j)) (fun j => x13 (ix1 j)) n j

/-- The two arrangements agree on real node features, edge weights, `W1` and `W2`. -/
theorem outK_eq_outR (x0 : T2 50000 128) (x1 x2 : I1 1600000) (x3 : T1 1600000) (x4 : T2 128 128) (x5 : T2 128 64)
    (x6 : T2 128 128) (x7 : T1 128) (x8 : T2 128 64) (x9 : T1 64) (x10 : T2 256 128) (x11 : T1 128) (x12 : T2 128 64)
    (x13 : T1 64)
    (h0 : ∀ i, ∃ r : ℝ, x0 i = (r : EReal)) (h3 : ∀ i, ∃ r : ℝ, x3 i = (r : EReal))
    (h4 : ∀ i, ∃ r : ℝ, x4 i = (r : EReal)) (h5 : ∀ i, ∃ r : ℝ, x5 i = (r : EReal)) (n : Fin 50000) (j : Fin 64) :
    outK x0 x1 x2 x3 x4 x5 x6 x7 x8 x9 x10 x11 x12 x13 n j = outR x0 x1 x2 x3 x4 x5 x6 x7 x8 x9 x10 x11 x12 x13 n j :=
  Cert.Laws.outK_eq_outR _ _ _ _ _ _ _ _ _ _ _ _ _ _ (fun e => h3 _) (fun n d => h0 _) (fun d k => h4 _) (fun k j => h5 _) n j

end Cert.Tables

end
-- ==== Proof.KVal.lean ====
/-
  The idealized kernel's result buffer, entry by entry, as a function of the launch memory.

  The fold of the program's four segments is read backwards from the result: the second kernel's output array is
  the three-part head of what it found in its windows; of those, the node's own path and the first convolution are
  the first kernel's output arrays, and the second aggregation is the host's sparse aggregation of the first
  kernel's third output `conv1 · W2`; the first kernel's arrays in turn are functions of the node table, the first
  aggregation (the host's, of the node table) and the weights.  Altogether the entry `(n, j)` is the kernel's
  arrangement `Cert.Tables.outK` of the fourteen argument arrays.
-/
import proofs.«132948_j5471788335183_2_alg».proof.Proof.KRun
import proofs.«132948_j5471788335183_2_alg».proof.Proof.KRegA
import proofs.«132948_j5471788335183_2_alg».proof.Proof.KRegB
import proofs.«132948_j5471788335183_2_alg».proof.Proof.KHost0
import proofs.«132948_j5471788335183_2_alg».proof.Proof.KHost1
import proofs.«132948_j5471788335183_2_alg».proof.Proof.Tables

set_option maxRecDepth 16384

noncomputable section

namespace Cert.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The array functions at an entry -/

theorem conv1Arr_apply (a : S50000x128.Idx → EReal) (W1 : S128x128.Idx → EReal) (n : Fin 50000) (k : Fin 128) :
    Cert.KRegA.conv1Arr a W1 (ix2 n k)
      = Cert.Spec.relu (Cert.Spec.dense (fun d => a (ix2 n d)) (fun d k' => W1 (ix2 d k')) k) := rfl

theorem tArr_apply (a : S50000x128.Idx → EReal) (W1 : S128x128.Idx → EReal) (W2 : S128x64.Idx → EReal)
    (n : Fin 50000) (j : Fin 64) :
    Cert.KRegA.tArr a W1 W2 (ix2 n j)
      = Cert.Spec.dense (fun k => Cert.Spec.relu (Cert.Spec.dense (fun d => a (ix2 n d)) (fun d k' => W1 (ix2 d k')) k))
          (fun k j' => W2 (ix2 k j')) j := rfl

theorem selfArr_apply (x : S50000x128.Idx → EReal) (Wm1 : S128x128.Idx → EReal) (bm1 : S1x128.Idx → EReal)
    (Wm2 : S128x64.Idx → EReal) (bm2 : S1x64.Idx → EReal) (n : Fin 50000) (j : Fin 64) :
    Cert.KRegA.selfArr x Wm1 bm1 Wm2 bm2 (ix2 n j)
      = Cert.Spec.dense (fun k => Cert.Spec.relu (Cert.Spec.dense (fun d => x (ix2 n d)) (fun d k' => Wm1 (ix2 d k')) k
          + bm1 (ix2 (0 : Fin 1) k))) (fun k j' => Wm2 (ix2 k j')) j + bm2 (ix2 (0 : Fin 1) j) := rfl

theorem headArr_apply (s : S50000x64.Idx → EReal) (c1 : S50000x128.Idx → EReal) (g : S50000x64.Idx → EReal)
    (Wh1 : S256x128.Idx → EReal) (b1 : S1x128.Idx → EReal) (Wh2 : S128x64.Idx → EReal) (b2 : S1x64.Idx → EReal)
    (n : Fin 50000) (j : Fin 64) :
    Cert.KRegB.headArr s c1 g Wh1 b1 Wh2 b2 (ix2 n j)
      = Cert.Spec.headK (fun a => s (ix2 n a)) (fun a => c1 (ix2 n a)) (fun a => g (ix2 n a))
          (fun a k => Wh1 (ix2 a k)) (fun k => b1 (ix2 (0 : Fin 1) k)) (fun k j' => Wh2 (ix2 k j'))
          (fun j' => b2 (ix2 (0 : Fin 1) j')) j := rfl

/-- The first kernel's first output at `(n, k)`: the first graph convolution. -/
theorem conv1_at (c : Dev nD) (n : Fin 50000) (k : Fin 128) :
    (W2 m ρ c (Proc.devRef .tc main_v19_0) : S50000x128.Idx → EReal) (ix2 n k) = (Cert.Spec.conv1 (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) (fun d k => ((m ((c : Thread nD τ).loc main_arg4)) : S128x128.Idx → EReal) (ix2 d k))) n k := by
  have e : (W2 m ρ c (Proc.devRef .tc main_v19_0) : S50000x128.Idx → EReal)
      = Cert.KRegA.conv1Arr (V1 m ρ c main_v14) (V1 m ρ c main_arg4) :=
    (W2_arr m ρ c 8).trans (Cert.KRegA.final8 (V1 m ρ) c)
  have ha : (fun d => (V1 m ρ c main_v14 : S50000x128.Idx → EReal) (ix2 n d)) = (Cert.Spec.agg (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) n) :=
    funext fun d => Cert.KHost.h14 m ρ c n d
  have hW1 : (fun d k' => (V1 m ρ c main_arg4 : S128x128.Idx → EReal) (ix2 d k')) = (fun d k => ((m ((c : Thread nD τ).loc main_arg4)) : S128x128.Idx → EReal) (ix2 d k)) := by
    rw [Cert.KHost.hA4 m ρ c]
  exact (congrFun e (ix2 n k)).trans (congrArg Cert.Spec.relu (congrArg₂ (fun A B => Cert.Spec.dense A B k) ha hW1))

/-- The first kernel's third output at `(n, j)`: the first convolution's row times `W2`. -/
theorem t_at (c : Dev nD) (n : Fin 50000) (j : Fin 64) :
    (W2 m ρ c (Proc.devRef .tc main_v19_2) : S50000x64.Idx → EReal) (ix2 n j)
      = Cert.Spec.dense ((Cert.Spec.conv1 (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) (fun d k => ((m ((c : Thread nD τ).loc main_arg4)) : S128x128.Idx → EReal) (ix2 d k))) n) (fun k j => ((m ((c : Thread nD τ).loc main_arg5)) : S128x64.Idx → EReal) (ix2 k j)) j := by
  have e : (W2 m ρ c (Proc.devRef .tc main_v19_2) : S50000x64.Idx → EReal)
      = Cert.KRegA.tArr (V1 m ρ c main_v14) (V1 m ρ c main_arg4) (V1 m ρ c main_arg5) :=
    (W2_arr m ρ c 10).trans (Cert.KRegA.final10 (V1 m ρ) c)
  have ha : (fun d => (V1 m ρ c main_v14 : S50000x128.Idx → EReal) (ix2 n d)) = (Cert.Spec.agg (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) n) :=
    funext fun d => Cert.KHost.h14 m ρ c n d
  have hW1 : (fun d k' => (V1 m ρ c main_arg4 : S128x128.Idx → EReal) (ix2 d k')) = (fun d k => ((m ((c : Thread nD τ).loc main_arg4)) : S128x128.Idx → EReal) (ix2 d k)) := by
    rw [Cert.KHost.hA4 m ρ c]
  have hW2 : (fun k j' => (V1 m ρ c main_arg5 : S128x64.Idx → EReal) (ix2 k j')) = (fun k j => ((m ((c : Thread nD τ).loc main_arg5)) : S128x64.Idx → EReal) (ix2 k j)) := by
    rw [Cert.KHost.hA5 m ρ c]
  have hC : (fun k => Cert.Spec.relu (Cert.Spec.dense (fun d => (V1 m ρ c main_v14 : S50000x128.Idx → EReal) (ix2 n d))
      (fun d k' => (V1 m ρ c main_arg4 : S128x128.Idx → EReal) (ix2 d k')) k)) = (Cert.Spec.conv1 (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) (fun d k => ((m ((c : Thread nD τ).loc main_arg4)) : S128x128.Idx → EReal) (ix2 d k))) n :=
    funext fun k => congrArg Cert.Spec.relu (congrArg₂ (fun A B => Cert.Spec.dense A B k) ha hW1)
  exact (congrFun e (ix2 n j)).trans (congrArg₂ (fun C B => Cert.Spec.dense C B j) hC hW2)

/-- The first kernel's second output at `(n, j)`: the node's own path. -/
theorem self_at (c : Dev nD) (n : Fin 50000) (j : Fin 64) :
    (W2 m ρ c (Proc.devRef .tc main_v19_1) : S50000x64.Idx → EReal) (ix2 n j) = (Cert.Spec.selfc (fun n d => ((m ((c : Thread nD τ).loc main_arg0)) : S50000x128.Idx → EReal) (ix2 n d)) (fun d k => ((m ((c : Thread nD τ).loc main_arg6)) : S128x128.Idx → EReal) (ix2 d k)) (fun k => ((m ((c : Thread nD τ).loc main_arg7)) : S128.Idx → EReal) (ix1 k)) (fun k j => ((m ((c : Thread nD τ).loc main_arg8)) : S128x64.Idx → EReal) (ix2 k j)) (fun j => ((m ((c : Thread nD τ).loc main_arg9)) : S64.Idx → EReal) (ix1 j))) n j := by
  have e : (W2 m ρ c (Proc.devRef .tc main_v19_1) : S50000x64.Idx → EReal)
      = Cert.KRegA.selfArr (V1 m ρ c main_arg0) (V1 m ρ c main_arg6) (V1 m ρ c main_v15) (V1 m ρ c main_arg8) (V1 m ρ c main_v16) :=
    (W2_arr m ρ c 9).trans (Cert.KRegA.final9 (V1 m ρ) c)
  have hx : (fun d => (V1 m ρ c main_arg0 : S50000x128.Idx → EReal) (ix2 n d)) = (fun n d => ((m ((c : Thread nD τ).loc main_arg0)) : S50000x128.Idx → EReal) (ix2 n d)) n := by
    rw [Cert.KHost.hA0 m ρ c]
  have hWm1 : (fun d k' => (V1 m ρ c main_arg6 : S128x128.Idx → EReal) (ix2 d k')) = (fun d k => ((m ((c : Thread nD τ).loc main_arg6)) : S128x128.Idx → EReal) (ix2 d k)) := by
    rw [Cert.KHost.hA6 m ρ c]
  have hb1 : (fun k => (V1 m ρ c main_v15 : S1x128.Idx → EReal) (ix2 (0 : Fin 1) k)) = (fun k => ((m ((c : Thread nD τ).loc main_arg7)) : S128.Idx → EReal) (ix1 k)) :=
    funext fun k => Cert.KHost.h15 m ρ c k
  have hWm2 : (fun k j' => (V1 m ρ c main_arg8 : S128x64.Idx → EReal) (ix2 k j')) = (fun k j => ((m ((c : Thread nD τ).loc main_arg8)) : S128x64.Idx → EReal) (ix2 k j)) := by
    rw [Cert.KHost.hA8 m ρ c]
  have hb2 : (V1 m ρ c main_v16 : S1x64.Idx → EReal) (ix2 (0 : Fin 1) j) = (fun j => ((m ((c : Thread nD τ).loc main_arg9)) : S64.Idx → EReal) (ix1 j)) j := Cert.KHost.h16 m ρ c j
  have hH : (fun k => Cert.Spec.relu (Cert.Spec.dense (fun d => (V1 m ρ c main_arg0 : S50000x128.Idx → EReal) (ix2 n d))
      (fun d k' => (V1 m ρ c main_arg6 : S128x128.Idx → EReal) (ix2 d k')) k + (V1 m ρ c main_v15 : S1x128.Idx → EReal) (ix2 (0 : Fin 1) k)))
      = fun k => Cert.Spec.relu (Cert.Spec.dense ((fun n d => ((m ((c : Thread nD τ).loc main_arg0)) : S50000x128.Idx → EReal) (ix2 n d)) n) (fun d k => ((m ((c : Thread nD τ).loc main_arg6)) : S128x128.Idx → EReal) (ix2 d k)) k + (fun k => ((m ((c : Thread nD τ).loc main_arg7)) : S128.Idx → EReal) (ix1 k)) k) :=
    funext fun k => congrArg Cert.Spec.relu (congrArg₂ (· + ·) (congrArg₂ (fun A B => Cert.Spec.dense A B k) hx hWm1) (congrFun hb1 k))
  exact (congrFun e (ix2 n j)).trans (congrArg₂ (· + ·) (congrArg₂ (fun C B => Cert.Spec.dense C B j) hH hWm2) hb2)

/-- THE RESULT at `(n, j)`: the kernel's arrangement of the fourteen argument arrays. -/
theorem out_at (c : Dev nD) (n : Fin 50000) (j : Fin 64) :
    (W4 m ρ c (Proc.devRef .tc main_v35) : S50000x64.Idx → EReal) (ix2 n j)
      = Cert.Tables.outK (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) n j := by
  have e : (W4 m ρ c (Proc.devRef .tc main_v35) : S50000x64.Idx → EReal)
      = Cert.KRegB.headArr (V3 m ρ c main_v19_1) (V3 m ρ c main_v19_0) (V3 m ρ c main_v34) (V3 m ρ c main_arg10)
          (V3 m ρ c main_v17) (V3 m ρ c main_arg12) (V3 m ρ c main_v18) :=
    (W4_arr m ρ c 7).trans (Cert.KRegB.final7 (V3 m ρ) c)
  have hs : (fun a => (V3 m ρ c main_v19_1 : S50000x64.Idx → EReal) (ix2 n a)) = (Cert.Spec.selfc (fun n d => ((m ((c : Thread nD τ).loc main_arg0)) : S50000x128.Idx → EReal) (ix2 n d)) (fun d k => ((m ((c : Thread nD τ).loc main_arg6)) : S128x128.Idx → EReal) (ix2 d k)) (fun k => ((m ((c : Thread nD τ).loc main_arg7)) : S128.Idx → EReal) (ix1 k)) (fun k j => ((m ((c : Thread nD τ).loc main_arg8)) : S128x64.Idx → EReal) (ix2 k j)) (fun j => ((m ((c : Thread nD τ).loc main_arg9)) : S64.Idx → EReal) (ix1 j))) n :=
    funext fun a => by rw [Cert.KHost.h19_1 m ρ c]; exact self_at m ρ c n a
  have hc : (fun a => (V3 m ρ c main_v19_0 : S50000x128.Idx → EReal) (ix2 n a)) = (Cert.Spec.conv1 (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) (fun d k => ((m ((c : Thread nD τ).loc main_arg4)) : S128x128.Idx → EReal) (ix2 d k))) n :=
    funext fun a => by rw [Cert.KHost.h19_0 m ρ c]; exact conv1_at m ρ c n a
  have hT : (fun n' j' => (W2 m ρ c (Proc.devRef .tc main_v19_2) : S50000x64.Idx → EReal) (ix2 n' j'))
      = fun n' j' => Cert.Spec.dense ((Cert.Spec.conv1 (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) (fun d k => ((m ((c : Thread nD τ).loc main_arg4)) : S128x128.Idx → EReal) (ix2 d k))) n') (fun k j => ((m ((c : Thread nD τ).loc main_arg5)) : S128x64.Idx → EReal) (ix2 k j)) j' :=
    funext fun n' => funext fun j' => t_at m ρ c n' j'
  have hg : (fun a => (V3 m ρ c main_v34 : S50000x64.Idx → EReal) (ix2 n a))
      = Cert.Spec.conv2K (Cert.Edges.row (m ((c : Thread nD τ).loc main_arg1))) (Cert.Edges.hits (m ((c : Thread nD τ).loc main_arg2))) (fun e => ((m ((c : Thread nD τ).loc main_arg3)) : S1600000.Idx → EReal) (ix1 e)) (Cert.Spec.conv1 (Cert.Edges.row (m ((c : Thread nD τ).loc main_arg1))) (Cert.Edges.hits (m ((c : Thread nD τ).loc main_arg2))) (fun e => ((m ((c : Thread nD τ).loc main_arg3)) : S1600000.Idx → EReal) (ix1 e)) (fun n d => ((m ((c : Thread nD τ).loc main_arg0)) : S50000x128.Idx → EReal) (ix2 n d)) (fun d k => ((m ((c : Thread nD τ).loc main_arg4)) : S128x128.Idx → EReal) (ix2 d k))) (fun k j => ((m ((c : Thread nD τ).loc main_arg5)) : S128x64.Idx → EReal) (ix2 k j)) n :=
    funext fun a => (Cert.KHost.h34 m ρ c n a).trans
      (congrArg (fun Y => Cert.Spec.agg (Cert.Edges.row (m ((c : Thread nD τ).loc main_arg1))) (Cert.Edges.hits (m ((c : Thread nD τ).loc main_arg2))) (fun e => ((m ((c : Thread nD τ).loc main_arg3)) : S1600000.Idx → EReal) (ix1 e)) Y n a) hT)
  have hWh1 : (fun a k => (V3 m ρ c main_arg10 : S256x128.Idx → EReal) (ix2 a k)) = (fun i k => ((m ((c : Thread nD τ).loc main_arg10)) : S256x128.Idx → EReal) (ix2 i k)) := by
    rw [Cert.KHost.hA10 m ρ c]
  have hb1 : (fun k => (V3 m ρ c main_v17 : S1x128.Idx → EReal) (ix2 (0 : Fin 1) k)) = (fun k => ((m ((c : Thread nD τ).loc main_arg11)) : S128.Idx → EReal) (ix1 k)) :=
    funext fun k => Cert.KHost.h17 m ρ c k
  have hWh2 : (fun k j' => (V3 m ρ c main_arg12 : S128x64.Idx → EReal) (ix2 k j')) = (fun k j => ((m ((c : Thread nD τ).loc main_arg12)) : S128x64.Idx → EReal) (ix2 k j)) := by
    rw [Cert.KHost.hA12 m ρ c]
  have hb2 : (fun j' => (V3 m ρ c main_v18 : S1x64.Idx → EReal) (ix2 (0 : Fin 1) j')) = (fun j => ((m ((c : Thread nD τ).loc main_arg13)) : S64.Idx → EReal) (ix1 j)) :=
    funext fun j' => Cert.KHost.h18 m ρ c j'
  refine (congrFun e (ix2 n j)).trans ?_
  show Cert.Spec.headK (fun a => (V3 m ρ c main_v19_1 : S50000x64.Idx → EReal) (ix2 n a)) (fun a => (V3 m ρ c main_v19_0 : S50000x128.Idx → EReal) (ix2 n a))
      (fun a => (V3 m ρ c main_v34 : S50000x64.Idx → EReal) (ix2 n a)) (fun a k => (V3 m ρ c main_arg10 : S256x128.Idx → EReal) (ix2 a k))
      (fun k => (V3 m ρ c main_v17 : S1x128.Idx → EReal) (ix2 (0 : Fin 1) k)) (fun k j' => (V3 m ρ c main_arg12 : S128x64.Idx → EReal) (ix2 k j'))
      (fun j' => (V3 m ρ c main_v18 : S1x64.Idx → EReal) (ix2 (0 : Fin 1) j')) j = _
  rw [hs, hc, hg, hWh1, hb1, hWh2, hb2]
  rfl

end Cert.KVal

end
-- ==== Proof.RefRead1.lean ====
/-
  The reference program's first sparse aggregation, read at an index.

  The program normalises the source words (a negative word counts from the end), gathers one row of the node table
  per edge, scales it by the edge weight, and adds the scaled rows into a zero table at the destination words.
  Read at node `n` and column `d` this is the specification's `agg`: the sum over the edges arriving at `n` of
  the weight times the table at the row the edge reads.
-/
import proofs.«132948_j5471788335183_2_alg».proof.Proof.Gen.ReferenceIdeal.Read
import proofs.«132948_j5471788335183_2_alg».proof.Proof.Spec
import proofs.«132948_j5471788335183_2_alg».proof.Proof.Edges

noncomputable section

namespace Cert.RefRead

open Cert.ReferenceIdeal Cert.ReferenceIdeal.Gen Cert.ReferenceIdeal.Read
open Idealize.ShloMosaic Idealize.ShloMosaic.ValueIdx Idealize.ShloMosaic.StableHlo

/-- The printed gather record is the row gather of a `50000 × 128` table by `1600000` start indices. -/
theorem gather_eq :
    gather_S50000x128_S1600000x1_S1600000x128_1_0_n_n_0_1_1128
      = Cert.LibGS.rowGatherDims 50000 1600000 128 gather_S50000x128_S1600000x1_S1600000x128_1_0_n_n_0_1_1128_wf := rfl

/-- The printed scatter record is the row scatter into a `50000 × 128` table of `1600000` update rows. -/
theorem scatter_eq :
    scatter_S50000x128_S1600000x1_S1600000x128_1_0_0_1
      = Cert.LibGS.rowScatterDims 50000 1600000 128 scatter_S50000x128_S1600000x1_S1600000x128_1_0_0_1_wf := rfl

section
variable (x0 : (⟨S50000x128, .f32⟩ : BufTy).Contents (Elt Ideal))
variable (x1 x2 : (⟨S1600000, .i32⟩ : BufTy).Contents (Elt Ideal))
variable (x3 : (⟨S1600000, .f32⟩ : BufTy).Contents (Elt Ideal))

/-- The start index of edge `e`: its source word, a negative one shifted up by the number of rows. -/
theorem v6_apply (e : Fin 1600000) :
    val_main_v6 (F := Ideal) x1 (ix2 e 0) = Cert.Edges.wrap (x1 (ix1 e)) := by
  rw [val_main_v6_apply, val_main_v5_apply, val_main_v2_apply, val_main_v4_apply, val_main_v1_apply,
    val_main_v3_apply, val_main_c_apply, val_main_c_0_apply]
  have hi : idx_main_v6 (ix2 e (0 : Fin 1)) = ix1 e := funext fun a => Fin.ext (by match a with | ⟨0, _⟩ => rfl)
  rw [hi]
  rfl

/-- The gathered table at edge `e`, column `c`: the node table at the row the edge reads. -/
theorem v7_apply (e : Fin 1600000) (c : Fin 128) :
    val_main_v7 (F := Ideal) x0 x1 (ix2 e c) = x0 (ix2 (Cert.Edges.row x1 e) c) := by
  unfold val_main_v7
  rw [gather_eq, Cert.LibGS.rowGather_apply (by decide), v6_apply]
  rfl

/-- The message of edge `e` at column `c`: the weight times the gathered entry. -/
theorem v9_apply (e : Fin 1600000) (c : Fin 128) :
    val_main_v9 (F := Ideal) x0 x1 x3 (ix2 e c) = x3 (ix1 e) * x0 (ix2 (Cert.Edges.row x1 e) c) := by
  rw [val_main_v9_apply, val_main_v8_apply, val_main_v0_apply, v7_apply, Ideal.mulf_def]
  have hi : idx_main_v0 (idx_main_v8 (ix2 e c)) = ix1 e := funext fun a => Fin.ext (by match a with | ⟨0, _⟩ => rfl)
  rw [hi]

/-- The destination word of edge `e`. -/
theorem v11_apply (e : Fin 1600000) :
    val_main_v11 (F := Ideal) x2 (ix2 e 0) = x2 (ix1 e) := by
  rw [val_main_v11_apply]
  have hi : idx_main_v11 (ix2 e (0 : Fin 1)) = ix1 e := funext fun a => Fin.ext (by match a with | ⟨0, _⟩ => rfl)
  rw [hi]

/-- The zero word is the number zero. -/
theorem zero_f32 : (FloatOps.ofBits .f32 0x00000000#32 : Ideal .f32) = (0 : EReal) := Ideal.ofBits_zero_f32

/-- The zero table. -/
theorem v10_apply (i : S50000x128.Idx) : val_main_v10 (F := Ideal) i = 0 := by
  rw [val_main_v10_apply, val_main_cst_apply, zero_f32]

/-- THE FIRST AGGREGATION at node `n`, column `d`. -/
theorem v12_apply (n : Fin 50000) (d : Fin 128) :
    val_main_v12 (F := Ideal) x0 x1 x2 x3 (ix2 n d)
      = Cert.Spec.agg (Cert.Edges.row x1) (Cert.Edges.hits x2) (fun e => x3 (ix1 e)) (fun m c => x0 (ix2 m c)) n d := by
  unfold val_main_v12
  rw [scatter_eq, Cert.LibGS.rowScatterAdd_apply, v10_apply, zero_add]
  unfold Cert.Spec.agg Cert.Edges.hits
  simp only [v11_apply, v9_apply]

end

end Cert.RefRead

end
-- ==== Proof.RefRead2.lean ====
/-
  The reference program's first graph convolution, second aggregation and second convolution, read at an index.

  The first convolution multiplies the aggregated node table by `W1` and rectifies it.  The program then repeats the
  gather, the scaling by the edge weights and the scatter-add on that table, and multiplies by `W2`.
-/
import proofs.«132948_j5471788335183_2_alg».proof.Proof.RefRead1

noncomputable section

namespace Cert.RefRead

open Cert.ReferenceIdeal Cert.ReferenceIdeal.Gen Cert.ReferenceIdeal.Read
open Idealize.ShloMosaic Idealize.ShloMosaic.ValueIdx Idealize.ShloMosaic.StableHlo

section
variable (x0 : (⟨S50000x128, .f32⟩ : BufTy).Contents (Elt Ideal))
variable (x1 x2 : (⟨S1600000, .i32⟩ : BufTy).Contents (Elt Ideal))
variable (x3 : (⟨S1600000, .f32⟩ : BufTy).Contents (Elt Ideal))
variable (x4 : (⟨S128x128, .f32⟩ : BufTy).Contents (Elt Ideal))
variable (x5 : (⟨S128x64, .f32⟩ : BufTy).Contents (Elt Ideal))

/-- The aggregated table times `W1`, at node `n`, column `k`. -/
theorem v13_apply (n : Fin 50000) (k : Fin 128) :
    val_main_v13 (F := Ideal) x0 x1 x2 x3 x4 (ix2 n k)
      = Cert.Spec.dense (Cert.Spec.agg (Cert.Edges.row x1) (Cert.Edges.hits x2) (fun e => x3 (ix1 e))
          (fun m c => x0 (ix2 m c)) n) (fun d j => x4 (ix2 d j)) k := by
  rw [val_main_v13_apply]
  unfold Cert.Spec.dense
  refine Finset.sum_congr rfl fun d _ => ?_
  have hl : lidx_main_v13 (ix2 n k) d = ix2 n d :=
    funext fun a => Fin.ext (by match a with | ⟨0, _⟩ => rfl | ⟨1, _⟩ => rfl)
  have hr : ridx_main_v13 (ix2 n k) d = ix2 d k :=
    funext fun a => Fin.ext (by match a with | ⟨0, _⟩ => rfl | ⟨1, _⟩ => rfl)
  rw [hl, hr, v12_apply]

/-- THE FIRST CONVOLUTION at node `n`, column `k`. -/
theorem v14_apply (n : Fin 50000) (k : Fin 128) :
    val_main_v14 (F := Ideal) x0 x1 x2 x3 x4 (ix2 n k)
      = Cert.Spec.conv1 (Cert.Edges.row x1) (Cert.Edges.hits x2) (fun e => x3 (ix1 e))
          (fun m c => x0 (ix2 m c)) (fun d j => x4 (ix2 d j)) n k := by
  rw [val_main_v14_apply, val_main_call0_v0_apply, val_main_call0_cst_apply, Ideal.maximumf_def,
    zero_f32, v13_apply]
  rfl

/-- The start index of edge `e` in the second gather: the same normalised source word. -/
theorem v21_apply (e : Fin 1600000) :
    val_main_v21 (F := Ideal) x1 (ix2 e 0) = Cert.Edges.wrap (x1 (ix1 e)) := by
  rw [val_main_v21_apply, val_main_v20_apply, val_main_v17_apply, val_main_v19_apply, val_main_v16_apply,
    val_main_v18_apply, val_main_c_1_apply, val_main_c_2_apply]
  have hi : idx_main_v21 (ix2 e (0 : Fin 1)) = ix1 e := funext fun a => Fin.ext (by match a with | ⟨0, _⟩ => rfl)
  rw [hi]
  rfl

/-- The second gathered table at edge `e`, column `c`: the first convolution at the row the edge reads. -/
theorem v22_apply (e : Fin 1600000) (c : Fin 128) :
    val_main_v22 (F := Ideal) x0 x1 x2 x3 x4 (ix2 e c)
      = Cert.Spec.conv1 (Cert.Edges.row x1) (Cert.Edges.hits x2) (fun e => x3 (ix1 e))
          (fun m c => x0 (ix2 m c)) (fun d j => x4 (ix2 d j)) (Cert.Edges.row x1 e) c := by
  unfold val_main_v22
  rw [gather_eq, Cert.LibGS.rowGather_apply (by decide), v21_apply, ← v14_apply]
  rfl

/-- The second message of edge `e` at column `c`. -/
theorem v24_apply (e : Fin 1600000) (c : Fin 128) :
    val_main_v24 (F := Ideal) x0 x1 x2 x3 x4 (ix2 e c)
      = x3 (ix1 e) * Cert.Spec.conv1 (Cert.Edges.row x1) (Cert.Edges.hits x2) (fun e => x3 (ix1 e))
          (fun m c => x0 (ix2 m c)) (fun d j => x4 (ix2 d j)) (Cert.Edges.row x1 e) c := by
  rw [val_main_v24_apply, val_main_v23_apply, val_main_v15_apply, v22_apply, Ideal.mulf_def]
  have hi : idx_main_v15 (idx_main_v23 (ix2 e c)) = ix1 e := funext fun a => Fin.ext (by match a with | ⟨0, _⟩ => rfl)
  rw [hi]

/-- The destination word of edge `e`, second scatter. -/
theorem v26_apply (e : Fin 1600000) :
    val_main_v26 (F := Ideal) x2 (ix2 e 0) = x2 (ix1 e) := by
  rw [val_main_v26_apply]
  have hi : idx_main_v26 (ix2 e (0 : Fin 1)) = ix1 e := funext fun a => Fin.ext (by match a with | ⟨0, _⟩ => rfl)
  rw [hi]

/-- The second zero table. -/
theorem v25_apply (i : S50000x128.Idx) : val_main_v25 (F := Ideal) i = 0 := by
  rw [val_main_v25_apply, val_main_cst_3_apply, zero_f32]

/-- THE SECOND AGGREGATION at node `n`, column `d`: the aggregation of the first convolution. -/
theorem v27_apply (n : Fin 50000) (d : Fin 128) :
    val_main_v27 (F := Ideal) x0 x1 x2 x3 x4 (ix2 n d)
      = Cert.Spec.agg (Cert.Edges.row x1) (Cert.Edges.hits x2) (fun e => x3 (ix1 e))
          (Cert.Spec.conv1 (Cert.Edges.row x1) (Cert.Edges.hits x2) (fun e => x3 (ix1 e))
            (fun m c => x0 (ix2 m c)) (fun d j => x4 (ix2 d j))) n d := by
  unfold val_main_v27
  rw [scatter_eq, Cert.LibGS.rowScatterAdd_apply, v25_apply, zero_add]
  simp only [v26_apply, v24_apply]
  rfl

/-- THE SECOND CONVOLUTION at node `n`, column `j`: aggregated first, multiplied by `W2` afterwards. -/
theorem v28_apply (n : Fin 50000) (j : Fin 64) :
    val_main_v28 (F := Ideal) x0 x1 x2 x3 x4 x5 (ix2 n j)
      = Cert.Spec.conv2R (Cert.Edges.row x1) (Cert.Edges.hits x2) (fun e => x3 (ix1 e))
          (Cert.Spec.conv1 (Cert.Edges.row x1) (Cert.Edges.hits x2) (fun e => x3 (ix1 e))
            (fun m c => x0 (ix2 m c)) (fun d j => x4 (ix2 d j))) (fun k j => x5 (ix2 k j)) n j := by
  rw [val_main_v28_apply]
  unfold Cert.Spec.conv2R Cert.Spec.dense
  refine Finset.sum_congr rfl fun d _ => ?_
  have hl : lidx_main_v28 (ix2 n j) d = ix2 n d :=
    funext fun a => Fin.ext (by match a with | ⟨0, _⟩ => rfl | ⟨1, _⟩ => rfl)
  have hr : ridx_main_v28 (ix2 n j) d = ix2 d j :=
    funext fun a => Fin.ext (by match a with | ⟨0, _⟩ => rfl | ⟨1, _⟩ => rfl)
  rw [hl, hr, v27_apply]

end

end Cert.RefRead

end
-- ==== Proof.RefRead3.lean ====
/-
  The reference program's own-node path, read at an index:
  `relu (X · Wm1 + bm1) · Wm2 + bm2`, each bias a row broadcast down the nodes.
-/
import proofs.«132948_j5471788335183_2_alg».proof.Proof.RefRead1

noncomputable section

namespace Cert.RefRead

open Cert.ReferenceIdeal Cert.ReferenceIdeal.Gen Cert.ReferenceIdeal.Read
open Idealize.ShloMosaic Idealize.ShloMosaic.ValueIdx Idealize.ShloMosaic.StableHlo

section
variable (x0 : (⟨S50000x128, .f32⟩ : BufTy).Contents (Elt Ideal))
variable (x6 : (⟨S128x128, .f32⟩ : BufTy).Contents (Elt Ideal))
variable (x7 : (⟨S128, .f32⟩ : BufTy).Contents (Elt Ideal))
variable (x8 : (⟨S128x64, .f32⟩ : BufTy).Contents (Elt Ideal))
variable (x9 : (⟨S64, .f32⟩ : BufTy).Contents (Elt Ideal))

/-- The node table times `Wm1`, at node `n`, column `k`. -/
theorem v29_apply (n : Fin 50000) (k : Fin 128) :
    val_main_v29 (F := Ideal) x0 x6 (ix2 n k)
      = Cert.Spec.dense (fun d => x0 (ix2 n d)) (fun d j => x6 (ix2 d j)) k := by
  rw [val_main_v29_apply]
  unfold Cert.Spec.dense
  refine Finset.sum_congr rfl fun d _ => ?_
  have hl : lidx_main_v29 (ix2 n k) d = ix2 n d :=
    funext fun a => Fin.ext (by match a with | ⟨0, _⟩ => rfl | ⟨1, _⟩ => rfl)
  have hr : ridx_main_v29 (ix2 n k) d = ix2 d k :=
    funext fun a => Fin.ext (by match a with | ⟨0, _⟩ => rfl | ⟨1, _⟩ => rfl)
  rw [hl, hr]

/-- The first bias, broadcast down the nodes. -/
theorem v31_apply (n : Fin 50000) (k : Fin 128) :
    val_main_v31 (F := Ideal) x7 (ix2 n k) = x7 (ix1 k) := by
  rw [val_main_v31_apply, val_main_v30_apply]
  have hi : idx_main_v30 (idx_main_v31 (ix2 n k)) = ix1 k := funext fun a => Fin.ext (by match a with | ⟨0, _⟩ => rfl)
  rw [hi]

/-- The hidden layer of the own-node path at node `n`, column `k`. -/
theorem v33_apply (n : Fin 50000) (k : Fin 128) :
    val_main_v33 (F := Ideal) x0 x6 x7 (ix2 n k)
      = Cert.Spec.relu (Cert.Spec.dense (fun d => x0 (ix2 n d)) (fun d j => x6 (ix2 d j)) k + x7 (ix1 k)) := by
  rw [val_main_v33_apply, val_main_call1_v0_apply, val_main_call1_cst_apply, Ideal.maximumf_def,
    zero_f32, val_main_v32_apply, Ideal.addf_def, v29_apply, v31_apply]
  rfl

/-- The second bias, broadcast down the nodes. -/
theorem v36_apply (n : Fin 50000) (j : Fin 64) :
    val_main_v36 (F := Ideal) x9 (ix2 n j) = x9 (ix1 j) := by
  rw [val_main_v36_apply, val_main_v35_apply]
  have hi : idx_main_v35 (idx_main_v36 (ix2 n j)) = ix1 j := funext fun a => Fin.ext (by match a with | ⟨0, _⟩ => rfl)
  rw [hi]

/-- THE OWN-NODE PATH at node `n`, column `j`. -/
theorem v37_apply (n : Fin 50000) (j : Fin 64) :
    val_main_v37 (F := Ideal) x0 x6 x7 x8 x9 (ix2 n j)
      = Cert.Spec.selfc (fun m c => x0 (ix2 m c)) (fun d k => x6 (ix2 d k)) (fun k => x7 (ix1 k))
          (fun k j => x8 (ix2 k j)) (fun j => x9 (ix1 j)) n j := by
  rw [val_main_v37_apply, Ideal.addf_def, v36_apply, val_main_v34_apply]
  unfold Cert.Spec.selfc
  congr 1
  unfold Cert.Spec.dense
  refine Finset.sum_congr rfl fun k _ => ?_
  have hl : lidx_main_v34 (ix2 n j) k = ix2 n k :=
    funext fun a => Fin.ext (by match a with | ⟨0, _⟩ => rfl | ⟨1, _⟩ => rfl)
  have hr : ridx_main_v34 (ix2 n j) k = ix2 k j :=
    funext fun a => Fin.ext (by match a with | ⟨0, _⟩ => rfl | ⟨1, _⟩ => rfl)
  rw [hl, hr, v33_apply]
  rfl

end

end Cert.RefRead

end
-- ==== Proof.RefRead4.lean ====
/-
  The reference program's joined row and its head, read at an index.

  The three node tables — the own-node path (64 columns), the first convolution (128) and the second (64) — are
  laid side by side; column `i` of the joined row comes from the table whose span holds `i`.  The head multiplies
  the joined row by `Wh1`, adds `bh1`, rectifies, multiplies by `Wh2` and adds `bh2`.
-/
import proofs.«132948_j5471788335183_2_alg».proof.Proof.RefRead2
import proofs.«132948_j5471788335183_2_alg».proof.Proof.RefRead3

noncomputable section

namespace Cert.RefRead

open Cert.ReferenceIdeal Cert.ReferenceIdeal.Gen Cert.ReferenceIdeal.Read
open Idealize.ShloMosaic Idealize.ShloMosaic.ValueIdx Idealize.ShloMosaic.StableHlo

section
variable (x0 : (⟨S50000x128, .f32⟩ : BufTy).Contents (Elt Ideal))
variable (x1 x2 : (⟨S1600000, .i32⟩ : BufTy).Contents (Elt Ideal))
variable (x3 : (⟨S1600000, .f32⟩ : BufTy).Contents (Elt Ideal))
variable (x4 : (⟨S128x128, .f32⟩ : BufTy).Contents (Elt Ideal))
variable (x5 : (⟨S128x64, .f32⟩ : BufTy).Contents (Elt Ideal))
variable (x6 : (⟨S128x128, .f32⟩ : BufTy).Contents (Elt Ideal))
variable (x7 : (⟨S128, .f32⟩ : BufTy).Contents (Elt Ideal))
variable (x8 : (⟨S128x64, .f32⟩ : BufTy).Contents (Elt Ideal))
variable (x9 : (⟨S64, .f32⟩ : BufTy).Contents (Elt Ideal))
variable (x10 : (⟨S256x128, .f32⟩ : BufTy).Contents (Elt Ideal))
variable (x11 : (⟨S128, .f32⟩ : BufTy).Contents (Elt Ideal))
variable (x12 : (⟨S128x64, .f32⟩ : BufTy).Contents (Elt Ideal))
variable (x13 : (⟨S64, .f32⟩ : BufTy).Contents (Elt Ideal))

/-- THE JOINED ROW at node `n`, column `i`. -/
theorem v38_apply (n : Fin 50000) (i : Fin 256) :
    val_main_v38 (F := Ideal) x0 x1 x2 x3 x4 x5 x6 x7 x8 x9 (ix2 n i)
      = Cert.Spec.cat (Cert.Spec.selfc (fun m c => x0 (ix2 m c)) (fun d k => x6 (ix2 d k)) (fun k => x7 (ix1 k))
          (fun k j => x8 (ix2 k j)) (fun j => x9 (ix1 j)) n)
          (Cert.Spec.conv1 (Cert.Edges.row x1) (Cert.Edges.hits x2) (fun e => x3 (ix1 e))
          (fun m c => x0 (ix2 m c)) (fun d j => x4 (ix2 d j)) n)
          (Cert.Spec.conv2R (Cert.Edges.row x1) (Cert.Edges.hits x2) (fun e => x3 (ix1 e))
          (Cert.Spec.conv1 (Cert.Edges.row x1) (Cert.Edges.hits x2) (fun e => x3 (ix1 e))
            (fun m c => x0 (ix2 m c)) (fun d j => x4 (ix2 d j))) (fun k j => x5 (ix2 k j)) n) i := by
  unfold val_main_v38 Cert.Spec.cat
  have hi : ∀ (C : Nat) (q : Fin C) (hr : (⟨2, ![50000, C]⟩ : Shape).rank = S50000x256.rank)
      (b : Fin (⟨2, ![50000, C]⟩ : Shape).rank), b.cast hr ≠ (1 : Fin S50000x256.rank) →
      ((ix2 n q : (⟨2, ![50000, C]⟩ : Shape).Idx) b).val = ((ix2 n i : S50000x256.Idx) (b.cast hr)).val := by
    intro C q hr b hb
    match b with
    | ⟨0, _⟩ => rfl
    | ⟨1, _⟩ => exact absurd rfl hb
  by_cases h1 : i.val < 64
  · rw [dif_pos h1, ← v37_apply]
    exact concatenate_apply_piece (1 : Fin S50000x256.rank) _ _ (ix2 n i) 0 (by show (0 : Nat) < 3; omega) S50000x64 _ rfl rfl 0 rfl
      (ix2 n ⟨i.val, h1⟩) (hi 64 _ rfl) (by show 0 + i.val = i.val; omega)
  · rw [dif_neg h1]
    by_cases h2 : i.val < 192
    · rw [dif_pos h2, ← v14_apply]
      exact concatenate_apply_piece (1 : Fin S50000x256.rank) _ _ (ix2 n i) 1 (by show (1 : Nat) < 3; omega) S50000x128 _ rfl rfl 64 rfl
        (ix2 n ⟨i.val - 64, by omega⟩) (hi 128 _ rfl) (by show 64 + (i.val - 64) = i.val; omega)
    · rw [dif_neg h2, ← v28_apply]
      exact concatenate_apply_piece (1 : Fin S50000x256.rank) _ _ (ix2 n i) 2 (by show (2 : Nat) < 3; omega) S50000x64 _ rfl rfl 192 rfl
        (ix2 n ⟨i.val - 192, by omega⟩) (hi 64 _ rfl) (by show 192 + (i.val - 192) = i.val; omega)

/-- The head's first bias, broadcast down the nodes. -/
theorem v41_apply (n : Fin 50000) (k : Fin 128) :
    val_main_v41 (F := Ideal) x11 (ix2 n k) = x11 (ix1 k) := by
  rw [val_main_v41_apply, val_main_v40_apply]
  have hi : idx_main_v40 (idx_main_v41 (ix2 n k)) = ix1 k := funext fun a => Fin.ext (by match a with | ⟨0, _⟩ => rfl)
  rw [hi]

/-- The head's hidden layer at node `n`, column `k`. -/
theorem v43_apply (n : Fin 50000) (k : Fin 128) :
    val_main_v43 (F := Ideal) x0 x1 x2 x3 x4 x5 x6 x7 x8 x9 x10 x11 (ix2 n k)
      = Cert.Spec.relu (Cert.Spec.dense (Cert.Spec.cat (Cert.Spec.selfc (fun m c => x0 (ix2 m c)) (fun d k => x6 (ix2 d k)) (fun k => x7 (ix1 k))
          (fun k j => x8 (ix2 k j)) (fun j => x9 (ix1 j)) n)
          (Cert.Spec.conv1 (Cert.Edges.row x1) (Cert.Edges.hits x2) (fun e => x3 (ix1 e))
          (fun m c => x0 (ix2 m c)) (fun d j => x4 (ix2 d j)) n)
          (Cert.Spec.conv2R (Cert.Edges.row x1) (Cert.Edges.hits x2) (fun e => x3 (ix1 e))
          (Cert.Spec.conv1 (Cert.Edges.row x1) (Cert.Edges.hits x2) (fun e => x3 (ix1 e))
            (fun m c => x0 (ix2 m c)) (fun d j => x4 (ix2 d j))) (fun k j => x5 (ix2 k j)) n)) (fun i k => x10 (ix2 i k)) k + x11 (ix1 k)) := by
  rw [val_main_v43_apply, val_main_call2_v0_apply, val_main_call2_cst_apply, Ideal.maximumf_def,
    zero_f32, val_main_v42_apply, Ideal.addf_def, v41_apply, val_main_v39_apply]
  unfold Cert.Spec.relu
  congr 2
  unfold Cert.Spec.dense
  refine Finset.sum_congr rfl fun i _ => ?_
  have hl : lidx_main_v39 (ix2 n k) i = ix2 n i :=
    funext fun a => Fin.ext (by match a with | ⟨0, _⟩ => rfl | ⟨1, _⟩ => rfl)
  have hr : ridx_main_v39 (ix2 n k) i = ix2 i k :=
    funext fun a => Fin.ext (by match a with | ⟨0, _⟩ => rfl | ⟨1, _⟩ => rfl)
  rw [hl, hr, v38_apply]

/-- The head's second bias, broadcast down the nodes. -/
theorem v46_apply (n : Fin 50000) (j : Fin 64) :
    val_main_v46 (F := Ideal) x13 (ix2 n j) = x13 (ix1 j) := by
  rw [val_main_v46_apply, val_main_v45_apply]
  have hi : idx_main_v45 (idx_main_v46 (ix2 n j)) = ix1 j := funext fun a => Fin.ext (by match a with | ⟨0, _⟩ => rfl)
  rw [hi]

/-- THE REFERENCE PROGRAM'S RESULT at node `n`, column `j`, as the specification's function of the argument arrays:
    the head on the joined row of the own-node path, the first convolution and the second convolution (aggregated
    first, multiplied by `W2` afterwards), the graph read off the two index arrays. -/
theorem ref_out_apply (n : Fin 50000) (j : Fin 64) :
    val_main_v47 (F := Ideal) x0 x1 x2 x3 x4 x5 x6 x7 x8 x9 x10 x11 x12 x13 (ix2 n j)
      = Cert.Spec.headR (Cert.Spec.selfc (fun m c => x0 (ix2 m c)) (fun d k => x6 (ix2 d k)) (fun k => x7 (ix1 k))
          (fun k j => x8 (ix2 k j)) (fun j => x9 (ix1 j)) n)
          (Cert.Spec.conv1 (Cert.Edges.row x1) (Cert.Edges.hits x2) (fun e => x3 (ix1 e))
          (fun m c => x0 (ix2 m c)) (fun d j => x4 (ix2 d j)) n)
          (Cert.Spec.conv2R (Cert.Edges.row x1) (Cert.Edges.hits x2) (fun e => x3 (ix1 e))
          (Cert.Spec.conv1 (Cert.Edges.row x1) (Cert.Edges.hits x2) (fun e => x3 (ix1 e))
            (fun m c => x0 (ix2 m c)) (fun d j => x4 (ix2 d j))) (fun k j => x5 (ix2 k j)) n)
          (fun i k => x10 (ix2 i k)) (fun k => x11 (ix1 k)) (fun k j => x12 (ix2 k j)) (fun j => x13 (ix1 j)) j := by
  rw [val_main_v47_apply, Ideal.addf_def, v46_apply, val_main_v44_apply]
  unfold Cert.Spec.headR
  congr 1
  unfold Cert.Spec.dense
  refine Finset.sum_congr rfl fun k _ => ?_
  have hl : lidx_main_v44 (ix2 n j) k = ix2 n k :=
    funext fun a => Fin.ext (by match a with | ⟨0, _⟩ => rfl | ⟨1, _⟩ => rfl)
  have hr : ridx_main_v44 (ix2 n j) k = ix2 k j :=
    funext fun a => Fin.ext (by match a with | ⟨0, _⟩ => rfl | ⟨1, _⟩ => rfl)
  rw [hl, hr, v43_apply]
  rfl

end

end Cert.RefRead

end
-- ==== Proof.Finite.lean ====
/-
  From the precondition to "every entry of every float argument is a real".

  The precondition is the conjunction of twelve tests, one per float argument: every entry x of the argument
  has max x (-x) strictly below the extended real that the word 0x7F800000 denotes, which is +∞. An extended
  real whose absolute value is below +∞ is neither infinity, so it is a real. The conjunction is a chain of
  one-bit ands, each test a reduction by and over all the entries of a one-bit array; a reduction by and that
  comes out 1 met a 1 at every entry.
-/
import proofs.«132948_j5471788335183_2_alg».proof.Defs
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value tests below +∞ is a real. -/
theorem real_of_abs_lt_inf (x : EReal)
    (h : FloatOps.cmpf (F := Ideal) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [inf_word] at h
  change BitVec.ofBool (decide (max x (-x) < ⊤)) = 1#1 at h
  have h' : max x (-x) < ⊤ := by
    by_contra hn
    rw [decide_eq_false hn] at h
    exact absurd h (by decide)
  induction x using EReal.rec
  · simp at h'
  · exact ⟨_, rfl⟩
  · simp at h'

/-- One test: if the reduction by and of the entrywise comparison |x| < +∞ is 1, every entry of x is a real. -/
theorem all_real {s : Shape} {dims : Fin S_.rank → Fin s.rank} (hb : S_.BroadcastsInDim s dims)
    {axes : List (Fin s.rank)} (hr : s.ReducesTo axes S_) (hu : 0 < S_.numel)
    (x : FVec Ideal s .f32) (init : IVec S_ 1)
    (e : Host.reduce IntOp.andi
      (cmpf .olt (Host.absf x) (broadcastInDim s dims hb (constant (F := Ideal) S_ .f32 0x7F800000#32)))
      init hr hu ValueIdx.ix0 = 1#1)
    (i : s.Idx) : ∃ r : ℝ, x i = (r : EReal) :=
  real_of_abs_lt_inf (x i) (Host.reduce_andi_all _ init hr hu _ e i)

variable [Cert.Pre_finite_inputs.Facts]

/-- If the precondition's function is all ones, every entry of each of the twelve float arguments is a real. -/
theorem fn_real (x0 : FVec Ideal S50000x128 .f32) (x1 x2 : IVec S1600000 32) (x3 : FVec Ideal S1600000 .f32)
    (x4 : FVec Ideal S128x128 .f32) (x5 : FVec Ideal S128x64 .f32) (x6 : FVec Ideal S128x128 .f32)
    (x7 : FVec Ideal S128 .f32) (x8 : FVec Ideal S128x64 .f32) (x9 : FVec Ideal S64 .f32)
    (x10 : FVec Ideal S256x128 .f32) (x11 : FVec Ideal S128 .f32) (x12 : FVec Ideal S128x64 .f32)
    (x13 : FVec Ideal S64 .f32)
    (h : Cert.Pre_finite_inputs.fn (F := Ideal) x0 x1 x2 x3 x4 x5 x6 x7 x8 x9 x10 x11 x12 x13 = (fun _ => 1#1)) :
    (∀ i, ∃ r : ℝ, x0 i = (r : EReal))
    ∧ (∀ i, ∃ r : ℝ, x3 i = (r : EReal))
    ∧ (∀ i, ∃ r : ℝ, x4 i = (r : EReal))
    ∧ (∀ i, ∃ r : ℝ, x5 i = (r : EReal))
    ∧ (∀ i, ∃ r : ℝ, x6 i = (r : EReal))
    ∧ (∀ i, ∃ r : ℝ, x7 i = (r : EReal))
    ∧ (∀ i, ∃ r : ℝ, x8 i = (r : EReal))
    ∧ (∀ i, ∃ r : ℝ, x9 i = (r : EReal))
    ∧ (∀ i, ∃ r : ℝ, x10 i = (r : EReal))
    ∧ (∀ i, ∃ r : ℝ, x11 i = (r : EReal))
    ∧ (∀ i, ∃ r : ℝ, x12 i = (r : EReal))
    ∧ (∀ i, ∃ r : ℝ, x13 i = (r : EReal)) := by
  have h0 := congrFun h ValueIdx.ix0
  dsimp only [fn, fn_part1, fn_part2, fn_part3] at h0
  simp only [andi, IntOp.andi_eq_one] at h0
  obtain ⟨⟨⟨⟨⟨⟨⟨⟨⟨⟨⟨e0, e3⟩, e4⟩, e5⟩, e6⟩, e7⟩, e8⟩, e9⟩, e10⟩, e11⟩, e12⟩, e13⟩ := h0
  exact ⟨all_real _ _ _ x0 _ e0,
    all_real _ _ _ x3 _ e3,
    all_real _ _ _ x4 _ e4,
    all_real _ _ _ x5 _ e5,
    all_real _ _ _ x6 _ e6,
    all_real _ _ _ x7 _ e7,
    all_real _ _ _ x8 _ e8,
    all_real _ _ _ x9 _ e9,
    all_real _ _ _ x10 _ e10,
    all_real _ _ _ x11 _ e11,
    all_real _ _ _ x12 _ e12,
    all_real _ _ _ x13 _ e13⟩

/-- Under the precondition, on every device, every entry of each of the twelve float arguments is a real. -/
theorem pre_real (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S50000x128 .f32) i = (r : EReal))
    ∧ (∀ i, ∃ r : ℝ, (m ((c.tc : Thread Cert.KernelIdeal.nD Cert.KernelIdeal.τ).loc Cert.KernelIdeal.main_arg3) : FVec Ideal S1600000 .f32) i = (r : EReal))
    ∧ (∀ i, ∃ r : ℝ, (m ((c.tc : Thread Cert.KernelIdeal.nD Cert.KernelIdeal.τ).loc Cert.KernelIdeal.main_arg4) : FVec Ideal S128x128 .f32) i = (r : EReal))
    ∧ (∀ i, ∃ r : ℝ, (m ((c.tc : Thread Cert.KernelIdeal.nD Cert.KernelIdeal.τ).loc Cert.KernelIdeal.main_arg5) : FVec Ideal S128x64 .f32) i = (r : EReal))
    ∧ (∀ i, ∃ r : ℝ, (m ((c.tc : Thread Cert.KernelIdeal.nD Cert.KernelIdeal.τ).loc Cert.KernelIdeal.main_arg6) : FVec Ideal S128x128 .f32) i = (r : EReal))
    ∧ (∀ i, ∃ r : ℝ, (m ((c.tc : Thread Cert.KernelIdeal.nD Cert.KernelIdeal.τ).loc Cert.KernelIdeal.main_arg7) : FVec Ideal S128 .f32) i = (r : EReal))
    ∧ (∀ i, ∃ r : ℝ, (m ((c.tc : Thread Cert.KernelIdeal.nD Cert.KernelIdeal.τ).loc Cert.KernelIdeal.main_arg8) : FVec Ideal S128x64 .f32) i = (r : EReal))
    ∧ (∀ i, ∃ r : ℝ, (m ((c.tc : Thread Cert.KernelIdeal.nD Cert.KernelIdeal.τ).loc Cert.KernelIdeal.main_arg9) : FVec Ideal S64 .f32) i = (r : EReal))
    ∧ (∀ i, ∃ r : ℝ, (m ((c.tc : Thread Cert.KernelIdeal.nD Cert.KernelIdeal.τ).loc Cert.KernelIdeal.main_arg10) : FVec Ideal S256x128 .f32) i = (r : EReal))
    ∧ (∀ i, ∃ r : ℝ, (m ((c.tc : Thread Cert.KernelIdeal.nD Cert.KernelIdeal.τ).loc Cert.KernelIdeal.main_arg11) : FVec Ideal S128 .f32) i = (r : EReal))
    ∧ (∀ i, ∃ r : ℝ, (m ((c.tc : Thread Cert.KernelIdeal.nD Cert.KernelIdeal.τ).loc Cert.KernelIdeal.main_arg12) : FVec Ideal S128x64 .f32) i = (r : EReal))
    ∧ (∀ i, ∃ r : ℝ, (m ((c.tc : Thread Cert.KernelIdeal.nD Cert.KernelIdeal.τ).loc Cert.KernelIdeal.main_arg13) : FVec Ideal S64 .f32) i = (r : EReal)) :=
  fn_real _ _ _ _ _ _ _ _ _ _ _ _ _ _ (hm c)

end Cert.Finite

end
-- ==== Proof.lean ====
/-
  The kernel computes the reference's function.

  Both programs are a two-layer graph convolution with a per-node path and a two-layer head over 50000 nodes and
  1600000 weighted edges.  With `agg` the sparse aggregation along the edges:
    conv1 = relu (agg X · W1),   selfc = relu (X · Wm1 + bm1) · Wm2 + bm2,
    out   = relu ([selfc | conv1 | conv2] · Wh1 + bh1) · Wh2 + bh2.
  The reference takes `conv2 = (agg conv1) · W2` and multiplies the joined 256-wide row by `Wh1` at once.  The kernel
  multiplies first, `conv2 = agg (conv1 · W2)`, aggregating a 64-wide table, and adds the three products of
  `selfc`, `conv1`, `conv2` with the matching row blocks of `Wh1`.  Over the extended reals the second difference
  is only a regrouping of one finite sum; the first is the linearity of the aggregation, which holds because under
  the precondition the node features, the edge weights, `W1` and `W2` are real numbers, hence so is `conv1`, and
  finite sums of real products distribute.  A change of float format is the identity here, so the kernel's reduced
  precision operands do not enter.

  The three frame claims are the generated frames (the reference's from its generated run); the idealization
  rewrote nothing, so `preserves` is trivial.
-/
import proofs.«132948_j5471788335183_2_alg».proof.Defs
import proofs.«132948_j5471788335183_2_alg».proof.Proof.Gen.Kernel
import proofs.«132948_j5471788335183_2_alg».proof.Proof.Gen.Kernel.Skeleton
import proofs.«132948_j5471788335183_2_alg».proof.Proof.Gen.Kernel.Launch
import proofs.«132948_j5471788335183_2_alg».proof.Proof.Gen.Kernel.Points
import proofs.«132948_j5471788335183_2_alg».proof.Proof.Gen.Kernel.Frame
import proofs.«132948_j5471788335183_2_alg».proof.Proof.Gen.KernelIdeal
import proofs.«132948_j5471788335183_2_alg».proof.Proof.Gen.KernelIdeal.Skeleton
import proofs.«132948_j5471788335183_2_alg».proof.Proof.Gen.KernelIdeal.Launch
import proofs.«132948_j5471788335183_2_alg».proof.Proof.Gen.KernelIdeal.Points
import proofs.«132948_j5471788335183_2_alg».proof.Proof.Gen.KernelIdeal.Frame
import proofs.«132948_j5471788335183_2_alg».proof.Proof.Gen.ReferenceIdeal
import proofs.«132948_j5471788335183_2_alg».proof.Proof.Gen.Pre_finite_inputs
import proofs.«132948_j5471788335183_2_alg».proof.Proof.Gen.ReferenceIdeal.Run
import proofs.«132948_j5471788335183_2_alg».proof.Proof.Gen.ReferenceIdeal.Read
import proofs.«132948_j5471788335183_2_alg».proof.Proof.KVal
import proofs.«132948_j5471788335183_2_alg».proof.Proof.RefRead4
import proofs.«132948_j5471788335183_2_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the arguments both programs run, and the reference's result is the kernel's: at
    every entry the reference's arrangement of the arguments equals the kernel's, the four arrays the
    linearity uses being real under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v35),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  obtain ⟨h0, h3, h4, h5, -⟩ := Cert.Finite.pre_real m hpre c
  rw [Cert.ReferenceIdeal.Read.val_main_v47_eq, a0, a1, a2, a3, a4, a5, a6, a7, a8, a9, a10, a11, a12, a13]
  funext i
  obtain ⟨n, j, rfl⟩ : ∃ (n : Fin 50000) (j : Fin 64), i = ix2 n j := ⟨i 0, i 1, eq_ix2 i⟩
  refine (Cert.RefRead.ref_out_apply _ _ _ _ _ _ _ _ _ _ _ _ _ _ n j).trans ?_
  refine Eq.trans ?_ (Cert.KVal.out_at m ρ c n j).symm
  exact (Cert.Tables.outK_eq_outR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) h0 h3 h4 h5 n j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
